-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x10 : Shape := ⟨2, ![200000, 10]⟩
abbrev S500000x10 : Shape := ⟨2, ![500000, 10]⟩
abbrev S300000x10 : Shape := ⟨2, ![300000, 10]⟩
abbrev S8000000 : Shape := ⟨1, ![8000000]⟩
abbrev S10x10 : Shape := ⟨2, ![10, 10]⟩
abbrev S10 : Shape := ⟨1, ![10]⟩
abbrev S10x1 : Shape := ⟨2, ![10, 1]⟩
abbrev S1 : Shape := ⟨1, ![1]⟩
abbrev S_ : Shape := ⟨0, ![]⟩

class Facts : Prop where
  bcast_S_S200000x10 : S_.BroadcastsInDim S200000x10 (![] : Fin 0 → Fin S200000x10.rank)
  reducesTo_S200000x10_S_d0_1 : S200000x10.ReducesTo [0, 1] S_
  h_S_ : 0 < S_.numel
  bcast_S_S500000x10 : S_.BroadcastsInDim S500000x10 (![] : Fin 0 → Fin S500000x10.rank)
  reducesTo_S500000x10_S_d0_1 : S500000x10.ReducesTo [0, 1] S_
  bcast_S_S300000x10 : S_.BroadcastsInDim S300000x10 (![] : Fin 0 → Fin S300000x10.rank)
  reducesTo_S300000x10_S_d0_1 : S300000x10.ReducesTo [0, 1] S_
  bcast_S_S10x10 : S_.BroadcastsInDim S10x10 (![] : Fin 0 → Fin S10x10.rank)
  reducesTo_S10x10_S_d0_1 : S10x10.ReducesTo [0, 1] S_
  bcast_S_S10 : S_.BroadcastsInDim S10 (![] : Fin 0 → Fin S10.rank)
  reducesTo_S10_S_d0 : S10.ReducesTo [0] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg11 : FVec F S10x10 .f32) (main_arg12 : FVec F S10 .f32) (main_arg13 : FVec F S10x1 .f32) (main_arg14 : FVec F S1 .f32) (main_v33 : IVec S_ 1) : IVec S_ 1 :=
  let main_v34 : FVec F S10x10 .f32 := Host.absf main_arg11
  let main_cst_12 : FVec F S_ .f32 := constant S_ .f32 0x7F800000#32
  let main_v35 : FVec F S10x10 .f32 := broadcastInDim S10x10 ![] bcast_S_S10x10 main_cst_12
  let main_v36 : IVec S10x10 1 := cmpf .olt main_v34 main_v35
  let main_c_13 : IVec S_ 1 := constantI S_ 1 1#1
  let main_v37 : IVec S_ 1 := (fun x v => Host.reduce IntOp.andi x v reducesTo_S10x10_S_d0_1 h_S_) main_v36 main_c_13
  let main_v38 : IVec S_ 1 := andi main_v33 main_v37
  let main_v39 : FVec F S10 .f32 := Host.absf main_arg12
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S10x1 .f32 := Host.absf main_arg13
  let main_cst_16 : FVec F S_ .f32 := constant S_ .f32 0x7F800000#32
  let main_v45 : FVec F S10x1 .f32 := broadcastInDim S10x1 ![] bcast_S_S10x1 main_cst_16
  let main_v46 : IVec S10x1 1 := cmpf .olt main_v44 main_v45
  let main_c_17 : IVec S_ 1 := constantI S_ 1 1#1
  let main_v47 : IVec S_ 1 := (fun x v => Host.reduce IntOp.andi x v reducesTo_S10x1_S_d0_1 h_S_) main_v46 main_c_17
  let main_v48 : IVec S_ 1 := andi main_v43 main_v47
  let main_v49 : FVec F S1 .f32 := Host.absf main_arg14
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg8 : FVec F S10x10 .f32) (main_arg9 : FVec F S10 .f32) (main_arg10 : FVec F S10x10 .f32) (main_arg11 : FVec F S10x10 .f32) (main_arg12 : FVec F S10 .f32) (main_arg13 : FVec F S10x1 .f32) (main_arg14 : FVec F S1 .f32) (main_v13 : IVec S_ 1) (main_v16 : IVec S10x10 1) : IVec S_ 1 :=
  let main_c_5 : IVec S_ 1 := constantI S_ 1 1#1
  let main_v17 : IVec S_ 1 := (fun x v => Host.reduce IntOp.andi x v reducesTo_S10x10_S_d0_1 h_S_) main_v16 main_c_5
  let main_v18 : IVec S_ 1 := andi main_v13 main_v17
  let main_v19 : FVec F S10x10 .f32 := Host.absf main_arg8
  let main_cst_6 : FVec F S_ .f32 := constant S_ .f32 0x7F800000#32
  let main_v20 : FVec F S10x10 .f32 := broadcastInDim S10x10 ![] bcast_S_S10x10 main_cst_6
  let main_v21 : IVec S10x10 1 := cmpf .olt main_v19 main_v20
  let main_c_7 : IVec S_ 1 := constantI S_ 1 1#1
  let main_v22 : IVec S_ 1 := (fun x v => Host.reduce IntOp.andi x v reducesTo_S10x10_S_d0_1 h_S_) main_v21 main_c_7
  let main_v23 : IVec S_ 1 := andi main_v18 main_v22
  let main_v24 : FVec F S10 .f32 := Host.absf main_arg9
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10x10 .f32 := Host.absf main_arg10
  let main_cst_10 : FVec F S_ .f32 := constant S_ .f32 0x7F800000#32
  let main_v30 : FVec F S10x10 .f32 := broadcastInDim S10x10 ![] bcast_S_S10x10 main_cst_10
  let main_v31 : IVec S10x10 1 := cmpf .olt main_v29 main_v30
  let main_c_11 : IVec S_ 1 := constantI S_ 1 1#1
  let main_v32 : IVec S_ 1 := (fun x v => Host.reduce IntOp.andi x v reducesTo_S10x10_S_d0_1 h_S_) main_v31 main_c_11
  let main_v33 : IVec S_ 1 := andi main_v28 main_v32
  fn_part2 (F := F) main_arg11 main_arg12 main_arg13 main_arg14 main_v33

def fn {F : FTy → Type} [FloatOps F] (main_arg0 : FVec F S200000x10 .f32) (main_arg1 : FVec F S500000x10 .f32) (main_arg2 : FVec F S300000x10 .f32) (main_arg3 : IVec S8000000 32) (main_arg4 : IVec S8000000 32) (main_arg5 : IVec S8000000 32) (main_arg6 : IVec S8000000 32) (main_arg7 : FVec F S10x10 .f32) (main_arg8 : FVec F S10x10 .f32) (main_arg9 : FVec F S10 .f32) (main_arg10 : FVec F S10x10 .f32) (main_arg11 : FVec F S10x10 .f32) (main_arg12 : FVec F S10 .f32) (main_arg13 : FVec F S10x1 .f32) (main_arg14 : FVec F S1 .f32) : IVec S_ 1 :=
  let main_v0 : FVec F S200000x10 .f32 := Host.absf main_arg0
  let main_cst : FVec F S_ .f32 := constant S_ .f32 0x7F800000#32
  let main_v1 : FVec F S200000x10 .f32 := broadcastInDim S200000x10 ![] bcast_S_S200000x10 main_cst
  let main_v2 : IVec S200000x10 1 := cmpf .olt main_v0 main_v1
  let main_c : IVec S_ 1 := constantI S_ 1 1#1
  let main_v3 : IVec S_ 1 := (fun x v => Host.reduce IntOp.andi x v reducesTo_S200000x10_S_d0_1 h_S_) main_v2 main_c
  let main_v4 : FVec F S500000x10 .f32 := Host.absf main_arg1
  let main_cst_0 : FVec F S_ .f32 := constant S_ .f32 0x7F800000#32
  let main_v5 : FVec F S500000x10 .f32 := broadcastInDim S500000x10 ![] bcast_S_S500000x10 main_cst_0
  let main_v6 : IVec S500000x10 1 := cmpf .olt main_v4 main_v5
  let main_c_1 : IVec S_ 1 := constantI S_ 1 1#1
  let main_v7 : IVec S_ 1 := (fun x v => Host.reduce IntOp.andi x v reducesTo_S500000x10_S_d0_1 h_S_) main_v6 main_c_1
  let main_v8 : IVec S_ 1 := andi main_v3 main_v7
  let main_v9 : FVec F S300000x10 .f32 := Host.absf main_arg2
  let main_cst_2 : FVec F S_ .f32 := constant S_ .f32 0x7F800000#32
  let main_v10 : FVec F S300000x10 .f32 := broadcastInDim S300000x10 ![] bcast_S_S300000x10 main_cst_2
  let main_v11 : IVec S300000x10 1 := cmpf .olt main_v9 main_v10
  let main_c_3 : IVec S_ 1 := constantI S_ 1 1#1
  let main_v12 : IVec S_ 1 := (fun x v => Host.reduce IntOp.andi x v reducesTo_S300000x10_S_d0_1 h_S_) main_v11 main_c_3
  let main_v13 : IVec S_ 1 := andi main_v8 main_v12
  let main_v14 : FVec F S10x10 .f32 := Host.absf main_arg7
  let main_cst_4 : FVec F S_ .f32 := constant S_ .f32 0x7F800000#32
  let main_v15 : FVec F S10x10 .f32 := broadcastInDim S10x10 ![] bcast_S_S10x10 main_cst_4
  let main_v16 : IVec S10x10 1 := cmpf .olt main_v14 main_v15
  fn_part1 (F := F) main_arg8 main_arg9 main_arg10 main_arg11 main_arg12 main_arg13 main_arg14 main_v13 main_v16
-- ==== Kernel.lean ====
abbrev S200000x10 : Shape := ⟨2, ![200000, 10]⟩
abbrev S500000x10 : Shape := ⟨2, ![500000, 10]⟩
abbrev S300000x10 : Shape := ⟨2, ![300000, 10]⟩
abbrev S8000000 : Shape := ⟨1, ![8000000]⟩
abbrev S10x10 : Shape := ⟨2, ![10, 10]⟩
abbrev S10 : Shape := ⟨1, ![10]⟩
abbrev S10x1 : Shape := ⟨2, ![10, 1]⟩
abbrev S1 : Shape := ⟨1, ![1]⟩
abbrev S_ : Shape := ⟨0, ![]⟩
abbrev S500000x1 : Shape := ⟨2, ![500000, 1]⟩
abbrev S500000x11 : Shape := ⟨2, ![500000, 11]⟩
abbrev S8000000x1 : Shape := ⟨2, ![8000000, 1]⟩
abbrev S8000000x11 : Shape := ⟨2, ![8000000, 11]⟩
abbrev S200000x11 : Shape := ⟨2, ![200000, 11]⟩
abbrev S300000x1 : Shape := ⟨2, ![300000, 1]⟩
abbrev S300000x11 : Shape := ⟨2, ![300000, 11]⟩
abbrev S1x10 : Shape := ⟨2, ![1, 10]⟩
abbrev S1x1 : Shape := ⟨2, ![1, 1]⟩
abbrev S200000x1 : Shape := ⟨2, ![200000, 1]⟩
abbrev S2000x10 : Shape := ⟨2, ![2000, 10]⟩
abbrev S2000x11 : Shape := ⟨2, ![2000, 11]⟩
abbrev S2000x1 : Shape := ⟨2, ![2000, 1]⟩

abbrev nBuf : Space → Nat
  | .hbm => 56
  | .vmem => 14
  | .smem => 0
  | _ => 0

abbrev bufTy : (tb : Table) → Fin (tcTables nBuf tb) → BufTy
  | .hbm, ⟨0, _⟩ => ⟨S200000x10, .f32⟩
  | .hbm, ⟨1, _⟩ => ⟨S500000x10, .f32⟩
  | .hbm, ⟨2, _⟩ => ⟨S300000x10, .f32⟩
  | .hbm, ⟨3, _⟩ => ⟨S8000000, .i32⟩
  | .hbm, ⟨4, _⟩ => ⟨S8000000, .i32⟩
  | .hbm, ⟨5, _⟩ => ⟨S8000000, .i32⟩
  | .hbm, ⟨6, _⟩ => ⟨S8000000, .i32⟩
  | .hbm, ⟨7, _⟩ => ⟨S10x10, .f32⟩
  | .hbm, ⟨8, _⟩ => ⟨S10x10, .f32⟩
  | .hbm, ⟨9, _⟩ => ⟨S10, .f32⟩
  | .hbm, ⟨10, _⟩ => ⟨S10x10, .f32⟩
  | .hbm, ⟨11, _⟩ => ⟨S10x10, .f32⟩
  | .hbm, ⟨12, _⟩ => ⟨S10, .f32⟩
  | .hbm, ⟨13, _⟩ => ⟨S10x1, .f32⟩
  | .hbm, ⟨14, _⟩ => ⟨S1, .f32⟩
  | .hbm, ⟨15, _⟩ => ⟨S_, .f32⟩
  | .hbm, ⟨16, _⟩ => ⟨S500000x1, .f32⟩
  | .hbm, ⟨17, _⟩ => ⟨S500000x11, .f32⟩
  | .hbm, ⟨18, _⟩ => ⟨S_, .i32⟩
  | .hbm, ⟨19, _⟩ => ⟨S8000000, .i32⟩
  | .hbm, ⟨20, _⟩ => ⟨S8000000, .i1⟩
  | .hbm, ⟨21, _⟩ => ⟨S_, .i32⟩
  | .hbm, ⟨22, _⟩ => ⟨S8000000, .i32⟩
  | .hbm, ⟨23, _⟩ => ⟨S8000000, .i32⟩
  | .hbm, ⟨24, _⟩ => ⟨S8000000, .i32⟩
  | .hbm, ⟨25, _⟩ => ⟨S8000000x1, .i32⟩
  | .hbm, ⟨26, _⟩ => ⟨S8000000x11, .f32⟩
  | .hbm, ⟨27, _⟩ => ⟨S_, .f32⟩
  | .hbm, ⟨28, _⟩ => ⟨S200000x11, .f32⟩
  | .hbm, ⟨29, _⟩ => ⟨S8000000x1, .i32⟩
  | .hbm, ⟨30, _⟩ => ⟨S200000x11, .f32⟩
  | .hbm, ⟨31, _⟩ => ⟨S_, .f32⟩
  | .hbm, ⟨32, _⟩ => ⟨S300000x1, .f32⟩
  | .hbm, ⟨33, _⟩ => ⟨S300000x11, .f32⟩
  | .hbm, ⟨34, _⟩ => ⟨S_, .i32⟩
  | .hbm, ⟨35, _⟩ => ⟨S8000000, .i32⟩
  | .hbm, ⟨36, _⟩ => ⟨S8000000, .i1⟩
  | .hbm, ⟨37, _⟩ => ⟨S_, .i32⟩
  | .hbm, ⟨38, _⟩ => ⟨S8000000, .i32⟩
  | .hbm, ⟨39, _⟩ => ⟨S8000000, .i32⟩
  | .hbm, ⟨40, _⟩ => ⟨S8000000, .i32⟩
  | .hbm, ⟨41, _⟩ => ⟨S8000000x1, .i32⟩
  | .hbm, ⟨42, _⟩ => ⟨S8000000x11, .f32⟩
  | .hbm, ⟨43, _⟩ => ⟨S_, .f32⟩
  | .hbm, ⟨44, _⟩ => ⟨S200000x11, .f32⟩
  | .hbm, ⟨45, _⟩ => ⟨S8000000x1, .i32⟩
  | .hbm, ⟨46, _⟩ => ⟨S200000x11, .f32⟩
  | .hbm, ⟨47, _⟩ => ⟨S10x10, .f32⟩
  | .hbm, ⟨48, _⟩ => ⟨S10, .f32⟩
  | .hbm, ⟨49, _⟩ => ⟨S1x10, .f32⟩
  | .hbm, ⟨50, _⟩ => ⟨S10x10, .bf16⟩
  | .hbm, ⟨51, _⟩ => ⟨S10x10, .bf16⟩
  | .hbm, ⟨52, _⟩ => ⟨S10x10, .bf16⟩
  | .hbm, ⟨53, _⟩ => ⟨S10x1, .bf16⟩
  | .hbm, ⟨54, _⟩ => ⟨S1x1, .f32⟩
  | .hbm, ⟨55, _⟩ => ⟨S200000x1, .f32⟩
  | .local _ .vmem, ⟨0, _⟩ => ⟨S2000x10, .f32⟩
  | .local _ .vmem, ⟨1, _⟩ => ⟨S2000x10, .f32⟩
  | .local _ .vmem, ⟨2, _⟩ => ⟨S2000x11, .f32⟩
  | .local _ .vmem, ⟨3, _⟩ => ⟨S2000x11, .f32⟩
  | .local _ .vmem, ⟨4, _⟩ => ⟨S2000x11, .f32⟩
  | .local _ .vmem, ⟨5, _⟩ => ⟨S2000x11, .f32⟩
  | .local _ .vmem, ⟨6, _⟩ => ⟨S10x10, .bf16⟩
  | .local _ .vmem, ⟨7, _⟩ => ⟨S10x10, .bf16⟩
  | .local _ .vmem, ⟨8, _⟩ => ⟨S10x10, .bf16⟩
  | .local _ .vmem, ⟨9, _⟩ => ⟨S1x10, .f32⟩
  | .local _ .vmem, ⟨10, _⟩ => ⟨S10x1, .bf16⟩
  | .local _ .vmem, ⟨11, _⟩ => ⟨S1x1, .f32⟩
  | .local _ .vmem, ⟨12, _⟩ => ⟨S2000x1, .f32⟩
  | .local _ .vmem, ⟨13, _⟩ => ⟨S2000x1, .f32⟩
  | _, _ => ⟨S200000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x11 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x11 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10x10 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x10 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x10 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S500000x1 : S_.BroadcastsInDim S500000x1 (![] : Fin 0 → Fin S500000x1.rank)
  concatenates_S500000x10_S500000x1_S500000x11_d1 : Shape.Concatenates [S500000x10, S500000x1] S500000x11 1
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S_S200000x11 : S_.BroadcastsInDim S200000x11 (![] : Fin 0 → Fin S200000x11.rank)
  bcast_S_S300000x1 : S_.BroadcastsInDim S300000x1 (![] : Fin 0 → Fin S300000x1.rank)
  concatenates_S300000x10_S300000x1_S300000x11_d1 : Shape.Concatenates [S300000x10, S300000x1] S300000x11 1
  shapeCasts_S10_S1x10 : S10.ShapeCasts S1x10
  bitsLt_bf16_f32 : FTy.bits .bf16 < FTy.bits .f32
  shapeCasts_S1_S1x1 : S1.ShapeCasts S1x1
  inb_S2000x10_S2000x10_0_0 : ∀ a, (![0, 0] : Fin 2 → Nat) a + S2000x10.size a ≤ S2000x10.size a
  h_S2000x10 : 0 < S2000x10.numel
  inb_S2000x11_S2000x11_0_0 : ∀ a, (![0, 0] : Fin 2 → Nat) a + S2000x11.size a ≤ S2000x11.size a
  h_S2000x11 : 0 < S2000x11.numel
  shapeCasts_S2000x11_S2000x11 : S2000x11.ShapeCasts S2000x11
  slices_S2000x11_o0_10_S2000x1 : S2000x11.Slices ![0, 10] S2000x1
  slices_S2000x11_o0_0_S2000x10 : S2000x11.Slices ![0, 0] S2000x10
  broadcasts_S2000x1_S2000x10 : S2000x1.Broadcasts S2000x10
  inb_S10x10_S10x10_0_0 : ∀ a, (![0, 0] : Fin 2 → Nat) a + S10x10.size a ≤ S10x10.size a
  h_S10x10 : 0 < S10x10.numel
  shapeCasts_S10x10_S10x10 : S10x10.ShapeCasts S10x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  inb_S10x1_S10x1_0_0 : ∀ a, (![0, 0] : Fin 2 → Nat) a + S10x1.size a ≤ S10x1.size a
  h_S10x1 : 0 < S10x1.numel
  shapeCasts_S10x1_S10x1 : S10x1.ShapeCasts S10x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  gather_S500000x11_S8000000x1_S8000000x11_1_0_n_n_0_1_111_wf : GatherDims.WF S500000x11 S8000000x1 S8000000x11 [1] [0] [] [0] [] 1 ![1, 11]
  scatter_S200000x11_S8000000x1_S8000000x11_1_0_0_1_wf : ScatterDims.WF S200000x11 S8000000x1 S8000000x11 [1] [0] [0] 1
  gather_S300000x11_S8000000x1_S8000000x11_1_0_n_n_0_1_111_wf : GatherDims.WF S300000x11 S8000000x1 S8000000x11 [1] [0] [] [0] [] 1 ![1, 11]
  dot_S2000x10_S10x10_S2000x10_1_0_0_1_n_n_wf : DotDims.WF S2000x10 S10x10 S2000x10 [1] [0] [0] [1] [] []
  dot_S2000x10_S10x1_S2000x1_1_0_0_1_n_n_wf : DotDims.WF S2000x10 S10x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x10.size a ≤ S200000x10.size a
  hwx0_0 : ∀ i : grid0.Coords, EltTy.bits .f32 = 32 ∨ (Rect.block (s := S200000x10) S2000x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x11.size a ≤ S200000x11.size a
  hwx0_1 : ∀ i : grid0.Coords, EltTy.bits .f32 = 32 ∨ (Rect.block (s := S200000x11) S2000x11.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x11.size a ≤ S200000x11.size a
  hwx0_2 : ∀ i : grid0.Coords, EltTy.bits .f32 = 32 ∨ (Rect.block (s := S200000x11) S2000x11.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x10.size a ≤ S10x10.size a
  hwx0_3 : ∀ i : grid0.Coords, EltTy.bits .bf16 = 32 ∨ (Rect.block (s := S10x10) S10x10.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x10.size a ≤ S10x10.size a
  hwx0_4 : ∀ i : grid0.Coords, EltTy.bits .bf16 = 32 ∨ (Rect.block (s := S10x10) S10x10.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x10.size a ≤ S10x10.size a
  hwx0_5 : ∀ i : grid0.Coords, EltTy.bits .bf16 = 32 ∨ (Rect.block (s := S10x10) S10x10.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x10.size a ≤ S1x10.size a
  hwx0_6 : ∀ i : grid0.Coords, EltTy.bits .f32 = 32 ∨ (Rect.block (s := S1x10) S1x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x1.size a ≤ S10x1.size a
  hwx0_7 : ∀ i : grid0.Coords, EltTy.bits .bf16 = 32 ∨ (Rect.block (s := S10x1) S10x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x1.size a ≤ S200000x1.size a
  hwx0_9 : ∀ i : grid0.Coords, EltTy.bits .f32 = 32 ∨ (Rect.block (s := S200000x1) S2000x1.size (cc0_transform_9 i) (hinb0_9 i)).WholeWords (EltTy.packing .f32)

variable [Facts₀]

def gather_S500000x11_S8000000x1_S8000000x11_1_0_n_n_0_1_111 : GatherDims S500000x11 S8000000x1 S8000000x11 where
  offsetDims := [1]
  collapsedSliceDims := [0]
  operandBatchingDims := []
  startIndicesBatchingDims := []
  startIndexMap := [0]
  indexVectorDim := 1
  sliceSizes := ![1, 11]
  wf := gather_S500000x11_S8000000x1_S8000000x11_1_0_n_n_0_1_111_wf
def scatter_S200000x11_S8000000x1_S8000000x11_1_0_0_1 : ScatterDims S200000x11 S8000000x1 S8000000x11 where
  updateWindowDims := [1]
  insertedWindowDims := [0]
  scatterDimsToOperandDims := [0]
  indexVectorDim := 1
  wf := scatter_S200000x11_S8000000x1_S8000000x11_1_0_0_1_wf
def gather_S300000x11_S8000000x1_S8000000x11_1_0_n_n_0_1_111 : GatherDims S300000x11 S8000000x1 S8000000x11 where
  offsetDims := [1]
  collapsedSliceDims := [0]
  operandBatchingDims := []
  startIndicesBatchingDims := []
  startIndexMap := [0]
  indexVectorDim := 1
  sliceSizes := ![1, 11]
  wf := gather_S300000x11_S8000000x1_S8000000x11_1_0_n_n_0_1_111_wf
def dot_S2000x10_S10x10_S2000x10_1_0_0_1_n_n : DotDims S2000x10 S10x10 S2000x10 where
  lhsContracting := [1]
  rhsContracting := [0]
  lhsNonContracting := [0]
  rhsNonContracting := [1]
  lhsBatch := []
  rhsBatch := []
  wf := dot_S2000x10_S10x10_S2000x10_1_0_0_1_n_n_wf
def dot_S2000x10_S10x1_S2000x1_1_0_0_1_n_n : DotDims S2000x10 S10x1 S2000x1 where
  lhsContracting := [1]
  rhsContracting := [0]
  lhsNonContracting := [0]
  rhsNonContracting := [1]
  lhsBatch := []
  rhsBatch := []
  wf := dot_S2000x10_S10x1_S2000x1_1_0_0_1_n_n_wf

abbrev win0_0 : Pipeline.Window sig grid0 :=
  Pipeline.Window.ofSpec (Memref.whole main_arg0) S2000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x11.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S2000x11.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S10x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S10x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S10x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S10x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v32) S2000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S200000x10 : Shape := ⟨2, ![200000, 10]⟩
abbrev S500000x10 : Shape := ⟨2, ![500000, 10]⟩
abbrev S300000x10 : Shape := ⟨2, ![300000, 10]⟩
abbrev S8000000 : Shape := ⟨1, ![8000000]⟩
abbrev S10x10 : Shape := ⟨2, ![10, 10]⟩
abbrev S10 : Shape := ⟨1, ![10]⟩
abbrev S10x1 : Shape := ⟨2, ![10, 1]⟩
abbrev S1 : Shape := ⟨1, ![1]⟩
abbrev S_ : Shape := ⟨0, ![]⟩
abbrev S8000000x1 : Shape := ⟨2, ![8000000, 1]⟩
abbrev S8000000x10 : Shape := ⟨2, ![8000000, 10]⟩
abbrev S200000 : Shape := ⟨1, ![200000]⟩
abbrev S200000x1 : Shape := ⟨2, ![200000, 1]⟩
abbrev S1x10 : Shape := ⟨2, ![1, 10]⟩
abbrev S1x1 : Shape := ⟨2, ![1, 1]⟩

abbrev nBuf : Space → Nat
  | .hbm => 82
  | .vmem => 0
  | .smem => 0
  | _ => 0

abbrev bufTy : (tb : Table) → Fin (tcTables nBuf tb) → BufTy
  | .hbm, ⟨0, _⟩ => ⟨S200000x10, .f32⟩
  | .hbm, ⟨1, _⟩ => ⟨S500000x10, .f32⟩
  | .hbm, ⟨2, _⟩ => ⟨S300000x10, .f32⟩
  | .hbm, ⟨3, _⟩ => ⟨S8000000, .i32⟩
  | .hbm, ⟨4, _⟩ => ⟨S8000000, .i32⟩
  | .hbm, ⟨5, _⟩ => ⟨S8000000, .i32⟩
  | .hbm, ⟨6, _⟩ => ⟨S8000000, .i32⟩
  | .hbm, ⟨7, _⟩ => ⟨S10x10, .f32⟩
  | .hbm, ⟨8, _⟩ => ⟨S10x10, .f32⟩
  | .hbm, ⟨9, _⟩ => ⟨S10, .f32⟩
  | .hbm, ⟨10, _⟩ => ⟨S10x10, .f32⟩
  | .hbm, ⟨11, _⟩ => ⟨S10x10, .f32⟩
  | .hbm, ⟨12, _⟩ => ⟨S10, .f32⟩
  | .hbm, ⟨13, _⟩ => ⟨S10x1, .f32⟩
  | .hbm, ⟨14, _⟩ => ⟨S1, .f32⟩
  | .hbm, ⟨15, _⟩ => ⟨S_, .i32⟩
  | .hbm, ⟨16, _⟩ => ⟨S8000000, .i32⟩
  | .hbm, ⟨17, _⟩ => ⟨S8000000, .i1⟩
  | .hbm, ⟨18, _⟩ => ⟨S_, .i32⟩
  | .hbm, ⟨19, _⟩ => ⟨S8000000, .i32⟩
  | .hbm, ⟨20, _⟩ => ⟨S8000000, .i32⟩
  | .hbm, ⟨21, _⟩ => ⟨S8000000, .i32⟩
  | .hbm, ⟨22, _⟩ => ⟨S8000000x1, .i32⟩
  | .hbm, ⟨23, _⟩ => ⟨S8000000x10, .f32⟩
  | .hbm, ⟨24, _⟩ => ⟨S_, .f32⟩
  | .hbm, ⟨25, _⟩ => ⟨S200000x10, .f32⟩
  | .hbm, ⟨26, _⟩ => ⟨S8000000x1, .i32⟩
  | .hbm, ⟨27, _⟩ => ⟨S200000x10, .f32⟩
  | .hbm, ⟨28, _⟩ => ⟨S_, .f32⟩
  | .hbm, ⟨29, _⟩ => ⟨S8000000, .f32⟩
  | .hbm, ⟨30, _⟩ => ⟨S_, .f32⟩
  | .hbm, ⟨31, _⟩ => ⟨S200000, .f32⟩
  | .hbm, ⟨32, _⟩ => ⟨S8000000x1, .i32⟩
  | .hbm, ⟨33, _⟩ => ⟨S200000, .f32⟩
  | .hbm, ⟨34, _⟩ => ⟨S_, .f32⟩
  | .hbm, ⟨35, _⟩ => ⟨S200000, .f32⟩
  | .hbm, ⟨36, _⟩ => ⟨S200000, .f32⟩
  | .hbm, ⟨37, _⟩ => ⟨S200000x1, .f32⟩
  | .hbm, ⟨38, _⟩ => ⟨S200000x10, .f32⟩
  | .hbm, ⟨39, _⟩ => ⟨S200000x10, .f32⟩
  | .hbm, ⟨40, _⟩ => ⟨S200000x10, .f32⟩
  | .hbm, ⟨41, _⟩ => ⟨S200000x10, .f32⟩
  | .hbm, ⟨42, _⟩ => ⟨S200000x10, .f32⟩
  | .hbm, ⟨43, _⟩ => ⟨S1x10, .f32⟩
  | .hbm, ⟨44, _⟩ => ⟨S200000x10, .f32⟩
  | .hbm, ⟨45, _⟩ => ⟨S200000x10, .f32⟩
  | .hbm, ⟨46, _⟩ => ⟨S_, .i32⟩
  | .hbm, ⟨47, _⟩ => ⟨S8000000, .i32⟩
  | .hbm, ⟨48, _⟩ => ⟨S8000000, .i1⟩
  | .hbm, ⟨49, _⟩ => ⟨S_, .i32⟩
  | .hbm, ⟨50, _⟩ => ⟨S8000000, .i32⟩
  | .hbm, ⟨51, _⟩ => ⟨S8000000, .i32⟩
  | .hbm, ⟨52, _⟩ => ⟨S8000000, .i32⟩
  | .hbm, ⟨53, _⟩ => ⟨S8000000x1, .i32⟩
  | .hbm, ⟨54, _⟩ => ⟨S8000000x10, .f32⟩
  | .hbm, ⟨55, _⟩ => ⟨S_, .f32⟩
  | .hbm, ⟨56, _⟩ => ⟨S200000x10, .f32⟩
  | .hbm, ⟨57, _⟩ => ⟨S8000000x1, .i32⟩
  | .hbm, ⟨58, _⟩ => ⟨S200000x10, .f32⟩
  | .hbm, ⟨59, _⟩ => ⟨S_, .f32⟩
  | .hbm, ⟨60, _⟩ => ⟨S8000000, .f32⟩
  | .hbm, ⟨61, _⟩ => ⟨S_, .f32⟩
  | .hbm, ⟨62, _⟩ => ⟨S200000, .f32⟩
  | .hbm, ⟨63, _⟩ => ⟨S8000000x1, .i32⟩
  | .hbm, ⟨64, _⟩ => ⟨S200000, .f32⟩
  | .hbm, ⟨65, _⟩ => ⟨S_, .f32⟩
  | .hbm, ⟨66, _⟩ => ⟨S200000, .f32⟩
  | .hbm, ⟨67, _⟩ => ⟨S200000, .f32⟩
  | .hbm, ⟨68, _⟩ => ⟨S200000x1, .f32⟩
  | .hbm, ⟨69, _⟩ => ⟨S200000x10, .f32⟩
  | .hbm, ⟨70, _⟩ => ⟨S200000x10, .f32⟩
  | .hbm, ⟨71, _⟩ => ⟨S200000x10, .f32⟩
  | .hbm, ⟨72, _⟩ => ⟨S200000x10, .f32⟩
  | .hbm, ⟨73, _⟩ => ⟨S200000x10, .f32⟩
  | .hbm, ⟨74, _⟩ => ⟨S1x10, .f32⟩
  | .hbm, ⟨75, _⟩ => ⟨S200000x10, .f32⟩
  | .hbm, ⟨76, _⟩ => ⟨S200000x10, .f32⟩
  | .hbm, ⟨77, _⟩ => ⟨S200000x10, .f32⟩
  | .hbm, ⟨78, _⟩ => ⟨S200000x1, .f32⟩
  | .hbm, ⟨79, _⟩ => ⟨S1x1, .f32⟩
  | .hbm, ⟨80, _⟩ => ⟨S200000x1, .f32⟩
  | .hbm, ⟨81, _⟩ => ⟨S200000x1, .f32⟩
  | _, _ => ⟨S200000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_cst_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩

abbrev nD : Nat := 1
abbrev τ : Topo := Topo.v7x

variable {F : FTy → Type} [FloatOps F]

class Facts₀ : Prop where
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S_S200000x10 : S_.BroadcastsInDim S200000x10 (![] : Fin 0 → Fin S200000x10.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x10_0_1 : S200000x1.BroadcastsInDim S200000x10 (![0, 1] : Fin 2 → Fin S200000x10.rank)
  bcast_S10_S1x10_1 : S10.BroadcastsInDim S1x10 (![1] : Fin 1 → Fin S1x10.rank)
  bcast_S1x10_S200000x10_0_1 : S1x10.BroadcastsInDim S200000x10 (![0, 1] : Fin 2 → Fin S200000x10.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  gather_S500000x10_S8000000x1_S8000000x10_1_0_n_n_0_1_110_wf : GatherDims.WF S500000x10 S8000000x1 S8000000x10 [1] [0] [] [0] [] 1 ![1, 10]
  scatter_S200000x10_S8000000x1_S8000000x10_1_0_0_1_wf : ScatterDims.WF S200000x10 S8000000x1 S8000000x10 [1] [0] [0] 1
  scatter_S200000_S8000000x1_S8000000_n_0_0_1_wf : ScatterDims.WF S200000 S8000000x1 S8000000 [] [0] [0] 1
  dot_S200000x10_S10x10_S200000x10_1_0_0_1_n_n_wf : DotDims.WF S200000x10 S10x10 S200000x10 [1] [0] [0] [1] [] []
  gather_S300000x10_S8000000x1_S8000000x10_1_0_n_n_0_1_110_wf : GatherDims.WF S300000x10 S8000000x1 S8000000x10 [1] [0] [] [0] [] 1 ![1, 10]
  dot_S200000x10_S10x1_S200000x1_1_0_0_1_n_n_wf : DotDims.WF S200000x10 S10x1 S200000x1 [1] [0] [0] [1] [] []

variable [Facts₀]

def gather_S500000x10_S8000000x1_S8000000x10_1_0_n_n_0_1_110 : GatherDims S500000x10 S8000000x1 S8000000x10 where
  offsetDims := [1]
  collapsedSliceDims := [0]
  operandBatchingDims := []
  startIndicesBatchingDims := []
  startIndexMap := [0]
  indexVectorDim := 1
  sliceSizes := ![1, 10]
  wf := gather_S500000x10_S8000000x1_S8000000x10_1_0_n_n_0_1_110_wf
def scatter_S200000x10_S8000000x1_S8000000x10_1_0_0_1 : ScatterDims S200000x10 S8000000x1 S8000000x10 where
  updateWindowDims := [1]
  insertedWindowDims := [0]
  scatterDimsToOperandDims := [0]
  indexVectorDim := 1
  wf := scatter_S200000x10_S8000000x1_S8000000x10_1_0_0_1_wf
def scatter_S200000_S8000000x1_S8000000_n_0_0_1 : ScatterDims S200000 S8000000x1 S8000000 where
  updateWindowDims := []
  insertedWindowDims := [0]
  scatterDimsToOperandDims := [0]
  indexVectorDim := 1
  wf := scatter_S200000_S8000000x1_S8000000_n_0_0_1_wf
def dot_S200000x10_S10x10_S200000x10_1_0_0_1_n_n : DotDims S200000x10 S10x10 S200000x10 where
  lhsContracting := [1]
  rhsContracting := [0]
  lhsNonContracting := [0]
  rhsNonContracting := [1]
  lhsBatch := []
  rhsBatch := []
  wf := dot_S200000x10_S10x10_S200000x10_1_0_0_1_n_n_wf
def gather_S300000x10_S8000000x1_S8000000x10_1_0_n_n_0_1_110 : GatherDims S300000x10 S8000000x1 S8000000x10 where
  offsetDims := [1]
  collapsedSliceDims := [0]
  operandBatchingDims := []
  startIndicesBatchingDims := []
  startIndexMap := [0]
  indexVectorDim := 1
  sliceSizes := ![1, 10]
  wf := gather_S300000x10_S8000000x1_S8000000x10_1_0_n_n_0_1_110_wf
def dot_S200000x10_S10x1_S200000x1_1_0_0_1_n_n : DotDims S200000x10 S10x1 S200000x1 where
  lhsContracting := [1]
  rhsContracting := [0]
  lhsNonContracting := [0]
  rhsNonContracting := [1]
  lhsBatch := []
  rhsBatch := []
  wf := dot_S200000x10_S10x1_S200000x1_1_0_0_1_n_n_wf

class Facts : Prop extends Facts₀ where

variable [Facts]
-- ==== Proof.Spec.lean ====
/-
  The row formulas of a two-relation mean-aggregating graph layer followed by a linear read-out, and the law that joins
  their two arrangements.

  For one destination node, with its own features `hs`, the two relations' mean neighbour features `mt`, `ma`, the
  weights and biases of the two relations and the read-out column `Wl` with its offset `bl`:

  * the SPLIT form computes each relation's output `hs · Wst + mt · Wnt + bt` and `hs · Wsa + ma · Wna + ba`, adds the two,
    and reads out;
  * the FUSED form multiplies `hs` once by the summed self weights, adds the two neighbour products, then the summed
    biases, and reads out.

  The two agree whenever `hs` and the two self-weight matrices are real: the only law used beyond commutativity and
  associativity of addition (which hold on all extended reals) is `x · (a + b) = x · a + x · b`, which needs its three
  entries finite.
-/
import Idealize.ShloMosaic.Lib.ValueIdx

noncomputable section

open scoped BigOperators

namespace Cert.Spec

open Idealize.ShloMosaic Idealize.ShloMosaic.ValueIdx

/-- The word of `1.0` read as an extended real. -/
abbrev one : EReal := Ideal.ofBits .f32 0x3F800000#32

/-- A summed feature divided by the degree, the degree guarded below by one (a node without neighbours keeps `0`). -/
def mean (agg cnt : EReal) : EReal := Ideal.div agg (max cnt one)

/-- The fused arrangement of one node's output. -/
def fusedRow (hs mt ma : Fin 10 → EReal) (Ws Wnt Wna : Fin 10 → Fin 10 → EReal) (b Wl : Fin 10 → EReal) (bl : EReal) : EReal :=
  (∑ j : Fin 10, ((((∑ k : Fin 10, hs k * Ws k j) + (∑ k : Fin 10, mt k * Wnt k j)) + (∑ k : Fin 10, ma k * Wna k j)) + b j) * Wl j) + bl

/-- The split arrangement of one node's output: each relation's layer, their sum, the read-out. -/
def splitRow (hs mt ma : Fin 10 → EReal) (Wst Wnt : Fin 10 → Fin 10 → EReal) (bt : Fin 10 → EReal)
    (Wsa Wna : Fin 10 → Fin 10 → EReal) (ba : Fin 10 → EReal) (Wl : Fin 10 → EReal) (bl : EReal) : EReal :=
  (∑ j : Fin 10, ((((∑ k : Fin 10, hs k * Wst k j) + (∑ k : Fin 10, mt k * Wnt k j)) + bt j)
      + (((∑ k : Fin 10, hs k * Wsa k j) + (∑ k : Fin 10, ma k * Wna k j)) + ba j)) * Wl j) + bl

/-- A real times a sum of two reals distributes, as extended reals. -/
theorem coe_mul_add (x a b : ℝ) : (x : EReal) * ((a : EReal) + (b : EReal)) = (x : EReal) * (a : EReal) + (x : EReal) * (b : EReal) := by
  rw [← EReal.coe_add, ← EReal.coe_mul, mul_add, EReal.coe_add, EReal.coe_mul, EReal.coe_mul]

/-- THE LAW: with the node's features and the two self-weight matrices real, the split arrangement is the fused one
    at the summed self weights and summed biases. -/
theorem splitRow_eq_fusedRow (hs mt ma : Fin 10 → EReal) (Wst Wnt : Fin 10 → Fin 10 → EReal) (bt : Fin 10 → EReal)
    (Wsa Wna : Fin 10 → Fin 10 → EReal) (ba : Fin 10 → EReal) (Wl : Fin 10 → EReal) (bl : EReal)
    (hhs : ∀ k, ∃ r : ℝ, hs k = (r : EReal)) (hWt : ∀ k j, ∃ r : ℝ, Wst k j = (r : EReal))
    (hWa : ∀ k j, ∃ r : ℝ, Wsa k j = (r : EReal)) :
    splitRow hs mt ma Wst Wnt bt Wsa Wna ba Wl bl
      = fusedRow hs mt ma (fun k j => Wst k j + Wsa k j) Wnt Wna (fun j => bt j + ba j) Wl bl := by
  unfold splitRow fusedRow
  congr 1
  refine Finset.sum_congr rfl fun j _ => ?_
  congr 1
  have hd : (∑ k : Fin 10, hs k * (Wst k j + Wsa k j)) = (∑ k : Fin 10, hs k * Wst k j) + (∑ k : Fin 10, hs k * Wsa k j) := by
    rw [← Finset.sum_add_distrib]
    refine Finset.sum_congr rfl fun k _ => ?_
    obtain ⟨x, hx⟩ := hhs k
    obtain ⟨a, ha⟩ := hWt k j
    obtain ⟨b, hb⟩ := hWa k j
    rw [hx, ha, hb, coe_mul_add]
  rw [hd]
  beta_reduce
  ac_rfl

end Cert.Spec

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.LibColumn.lean ====
/-
  A column of per-row values used against a matrix.

  A vector of length `a` written as an `[a, 1]` column (a reshape that appends a unit axis) holds, at row `i`, the
  vector's entry `i`; and an `[a, 1]` column broadcast along the second axis to `[a, b]` holds, at `(p, c)`, the
  column's entry of row `p`, whatever the column coordinate `c`. Both are read off the general index lemmas for a
  shape cast (equal row-major positions) and for a broadcast (unit axes read at 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.KernelPayload.lean ====
/-
  One block of the fused kernel body, read at a row.

  The body takes a block of 2000 destination nodes: their features `x0`, the two relations' aggregates `x1`, `x2`
  (ten summed neighbour features and, in column 10, the degree), three 10 × 10 weight matrices, a bias row, the read-out
  column and its offset. For each relation it divides the ten summed features by the degree guarded below by one,
  multiplies the three 2000 × 10 arrays by their weights into a zero accumulator, adds the products and the bias row,
  and multiplies the result by the read-out column, adding the offset. Changes of float format are the identity on
  extended reals. Read at row `p` this is the fused row formula of the specification at the block's row `p`.
-/
import proofs.«134058_j34986803593241_2_alg».proof.Proof.Gen.KernelIdeal.Skeleton
import proofs.«134058_j34986803593241_2_alg».proof.Proof.Spec
import proofs.«134058_j34986803593241_2_alg».proof.Proof.LibPlainDot
import proofs.«134058_j34986803593241_2_alg».proof.Proof.LibColumn
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The two matrix products at an index -/

theorem dotA_lhs0 (i : S2000x10.Idx) (q : dot_S2000x10_S10x10_S2000x10_1_0_0_1_n_n.contr.Idx) :
    (dot_S2000x10_S10x10_S2000x10_1_0_0_1_n_n.lhsIdx i q 0).val = (i 0).val := by
  unfold DotDims.lhsIdx
  rw [dif_neg (show ¬(0 : Fin S2000x10.rank) ∈ dot_S2000x10_S10x10_S2000x10_1_0_0_1_n_n.lhsBatch by decide),
    dif_pos (show (0 : Fin S2000x10.rank) ∈ dot_S2000x10_S10x10_S2000x10_1_0_0_1_n_n.lhsNonContracting by decide)]
  rfl

theorem dotA_rhs1 (i : S2000x10.Idx) (q : dot_S2000x10_S10x10_S2000x10_1_0_0_1_n_n.contr.Idx) :
    (dot_S2000x10_S10x10_S2000x10_1_0_0_1_n_n.rhsIdx i q 1).val = (i 1).val := by
  unfold DotDims.rhsIdx
  rw [dif_neg (show ¬(1 : Fin S10x10.rank) ∈ dot_S2000x10_S10x10_S2000x10_1_0_0_1_n_n.rhsBatch by decide),
    dif_pos (show (1 : Fin S10x10.rank) ∈ dot_S2000x10_S10x10_S2000x10_1_0_0_1_n_n.rhsNonContracting by decide)]
  rfl

/-- A 2000 × 10 block times a 10 × 10 matrix into the zero accumulator, at (p, q): the sum over the ten contracted
    coordinates. -/
theorem dotA_apply {φ₁ φ₂ : FTy} (l : FVec Ideal S2000x10 φ₁) (r : FVec Ideal S10x10 φ₂) (p : Fin 2000) (q : Fin 10) :
    matmul dot_S2000x10_S10x10_S2000x10_1_0_0_1_n_n none l r (constant S2000x10 .f32 0x00000000#32) (ix2 p q)
      = ∑ k : Fin 10, l (ix2 p k) * r (ix2 k q) :=
  Cert.LibPlainDot.matmul_zero_apply dot_S2000x10_S10x10_S2000x10_1_0_0_1_n_n rfl rfl dotA_lhs0 dotA_rhs1 rfl rfl none l r p q

theorem dotB_lhs0 (i : S2000x1.Idx) (q : dot_S2000x10_S10x1_S2000x1_1_0_0_1_n_n.contr.Idx) :
    (dot_S2000x10_S10x1_S2000x1_1_0_0_1_n_n.lhsIdx i q 0).val = (i 0).val := by
  unfold DotDims.lhsIdx
  rw [dif_neg (show ¬(0 : Fin S2000x10.rank) ∈ dot_S2000x10_S10x1_S2000x1_1_0_0_1_n_n.lhsBatch by decide),
    dif_pos (show (0 : Fin S2000x10.rank) ∈ dot_S2000x10_S10x1_S2000x1_1_0_0_1_n_n.lhsNonContracting by decide)]
  rfl

theorem dotB_rhs1 (i : S2000x1.Idx) (q : dot_S2000x10_S10x1_S2000x1_1_0_0_1_n_n.contr.Idx) :
    (dot_S2000x10_S10x1_S2000x1_1_0_0_1_n_n.rhsIdx i q 1).val = (i 1).val := by
  unfold DotDims.rhsIdx
  rw [dif_neg (show ¬(1 : Fin S10x1.rank) ∈ dot_S2000x10_S10x1_S2000x1_1_0_0_1_n_n.rhsBatch by decide),
    dif_pos (show (1 : Fin S10x1.rank) ∈ dot_S2000x10_S10x1_S2000x1_1_0_0_1_n_n.rhsNonContracting by decide)]
  rfl

/-- A 2000 × 10 block times the 10 × 1 read-out column into the zero accumulator, at (p, 0). -/
theorem dotB_apply {φ₁ φ₂ : FTy} (l : FVec Ideal S2000x10 φ₁) (r : FVec Ideal S10x1 φ₂) (p : Fin 2000) (q : Fin 1) :
    matmul dot_S2000x10_S10x1_S2000x1_1_0_0_1_n_n none l r (constant S2000x1 .f32 0x00000000#32) (ix2 p q)
      = ∑ k : Fin 10, l (ix2 p k) * r (ix2 k q) :=
  Cert.LibPlainDot.matmul_zero_apply dot_S2000x10_S10x1_S2000x1_1_0_0_1_n_n rfl rfl dotB_lhs0 dotB_rhs1 rfl rfl none l r p q

/-! ## The guarded mean at an index -/

/-- The ten summed features divided by the degree column guarded below by one, at (p, k): the mean of the
    specification at the aggregate's entries (p, k) and (p, 10). -/
theorem mean_apply (x : FVec Ideal S2000x11 .f32) (hs0 : S2000x11.Slices ![0, 0] S2000x10)
    (hs10 : S2000x11.Slices ![0, 10] S2000x1) (hb : S2000x1.Broadcasts S2000x10) (p : Fin 2000) (k : Fin 10) :
    divf (extractStridedSlice S2000x10 ![0, 0] x hs0)
      (broadcastTo S2000x10 (maximumf (extractStridedSlice S2000x1 ![0, 10] x hs10)
        (broadcast S2000x1 (Scalar.ofBits (F := Ideal) .f32 0x3F800000#32))) hb) (ix2 p k)
      = Cert.Spec.mean (x (ix2 p k.castSucc)) (x (ix2 p (10 : Fin 11))) := by
  rw [divf_apply, Cert.LibColumn.broadcastTo_a1_ab_apply, maximumf_apply, broadcast_apply,
    slice2_axis1_apply 0 x hs0 p k k.castSucc (by simp), slice2_axis1_apply 10 x hs10 p (0 : Fin 1) (10 : Fin 11) rfl]
  rfl

/-! ## The whole body at a row -/

/-- THE BODY AT ROW `p`: the fused row formula at the block's row. -/
theorem body_apply (x0 : Vec Ideal S2000x10 .f32) (x1 x2 : Vec Ideal S2000x11 .f32) (x3 x4 x5 : Vec Ideal S10x10 .bf16)
    (x6 : Vec Ideal S1x10 .f32) (x7 : Vec Ideal S10x1 .bf16) (x8 : Vec Ideal S1x1 .f32) (p : Fin 2000) :
    k0_pay1 (F := Ideal) (k0_pay2 x0 x1 x2 x3 x4 x5 x6) (k0_pay3 x7) x8 (ix2 p (0 : Fin 1))
      = Cert.Spec.fusedRow (fun k => x0 (ix2 p k))
          (fun k => Cert.Spec.mean (x1 (ix2 p k.castSucc)) (x1 (ix2 p (10 : Fin 11))))
          (fun k => Cert.Spec.mean (x2 (ix2 p k.castSucc)) (x2 (ix2 p (10 : Fin 11))))
          (fun k j => x3 (ix2 k j)) (fun k j => x4 (ix2 k j)) (fun k j => x5 (ix2 k j))
          (fun j => x6 (ix2 (0 : Fin 1) j)) (fun j => x7 (ix2 j (0 : Fin 1))) (x8 (ix2 (0 : Fin 1) (0 : Fin 1))) := by
  unfold k0_pay1 k0_pay2 k0_pay3 Cert.Spec.fusedRow
  simp only [shapeCast_self]
  rw [addf_apply, dotB_apply, broadcastTo_1b_ab_apply]
  refine congrArg₂ (· + ·) (Finset.sum_congr rfl fun j _ => ?_) rfl
  rw [truncf_apply, addf_apply, addf_apply, addf_apply, dotA_apply, dotA_apply, dotA_apply, broadcastTo_1b_ab_apply]
  refine congrArg₂ (· * ·) (congrArg₂ (· + ·) (congrArg₂ (· + ·) (congrArg₂ (· + ·) ?_ ?_) ?_) rfl) rfl
  · rfl
  · refine Finset.sum_congr rfl fun k _ => ?_
    rw [truncf_apply, mean_apply]
  · refine Finset.sum_congr rfl fun k _ => ?_
    rw [truncf_apply, mean_apply]

end Cert.KernelIdeal.Payload

end
-- ==== Proof.KernelBlocks.lean ====
/-
  From the kernel's blocks to its whole result array.

  The kernel runs over 100 grid points; point `t` stages rows `2000 t … 2000 t + 1999` of the node features and of the two
  aggregates, the six small weight arrays whole, and writes rows `2000 t … 2000 t + 1999` of the one-column result. So row
  `p` of what point `t` writes is the fused row formula at node `2000 t + p` of the arrays the region finds, the 100 blocks
  tile the 200000 rows, and the result array is that formula at every node.
-/
import proofs.«134058_j34986803593241_2_alg».proof.Proof.Gen.KernelIdeal.Value
import proofs.«134058_j34986803593241_2_alg».proof.Proof.KernelPayload
import proofs.«134058_j34986803593241_2_alg».proof.Proof.Spec
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The fused row formula at node `n` of nine arrays: node features, two 11-column aggregates, three weight
    matrices, the bias row, the read-out column and its offset. -/
def rowOf (A0 : S200000x10.Idx → EReal) (A1 A2 : S200000x11.Idx → EReal) (A3 A4 A5 : S10x10.Idx → EReal)
    (A6 : S1x10.Idx → EReal) (A7 : S10x1.Idx → EReal) (A8 : S1x1.Idx → EReal) (n : Fin 200000) : EReal :=
  Cert.Spec.fusedRow (fun k => A0 (ix2 n k))
    (fun k => Cert.Spec.mean (A1 (ix2 n k.castSucc)) (A1 (ix2 n (10 : Fin 11))))
    (fun k => Cert.Spec.mean (A2 (ix2 n k.castSucc)) (A2 (ix2 n (10 : Fin 11))))
    (fun k j => A3 (ix2 k j)) (fun k j => A4 (ix2 k j)) (fun k j => A5 (ix2 k j))
    (fun j => A6 (ix2 (0 : Fin 1) j)) (fun j => A7 (ix2 j (0 : Fin 1))) (A8 (ix2 (0 : Fin 1) (0 : Fin 1)))

/-- The row formula as a function on the result array's indices: at index `i`, node `i 0`. -/
def rowFn (A0 : S200000x10.Idx → EReal) (A1 A2 : S200000x11.Idx → EReal) (A3 A4 A5 : S10x10.Idx → EReal)
    (A6 : S1x10.Idx → EReal) (A7 : S10x1.Idx → EReal) (A8 : S1x1.Idx → EReal) : S200000x1.Idx → EReal := fun i =>
  rowOf A0 A1 A2 A3 A4 A5 A6 A7 A8 ⟨(i 0).val, idx2_lt0 i⟩

/-- The result array as one function of the arrays the region finds: at node `i 0`, the fused row formula. -/
def G (c : Dev nD) : S200000x1.Idx → EReal :=
  rowFn (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8))

/-- The printed index maps, decided over the grid: the three row-blocked inputs and the output sit at block row `t`,
    the six small arrays at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem t_lt (t : Fin cfg0.N) : t.val < 100 := by
  have h := t.isLt
  have hN : cfg0.N = 100 := N_0
  omega

/-- A block of window 0 read at row `p`: the array at node `2000 t + p`. -/
theorem blk0_read (t : Fin cfg0.N) (A : S200000x10.Idx → EReal) (p : Fin 2000) (k : Fin 10) (n : Fin 200000) (hn : n.val = 2000 * t.val + p.val) :
    ((cfg0.win 0).blk t).view.read (Elt Ideal) A (ix2 p k) = A (ix2 n k) := by
  have e0 : win0_0.index t (0 : Fin 2) = t.val := (idx_facts t).1
  have e1 : win0_0.index t (1 : Fin 2) = 0 := (idx_facts t).2.1
  rw [View.read_apply]
  refine congrArg A (funext fun a => Fin.ext ?_)
  match a with
  | ⟨0, _⟩ => show win0_0.index t (0 : Fin 2) * 2000 + 1 * p.val = n.val; rw [e0, hn]; omega
  | ⟨1, _⟩ => show win0_0.index t (1 : Fin 2) * 10 + 1 * k.val = k.val; rw [e1]; omega

/-- A block of window 1 read at row `p`: the array at node `2000 t + p`. -/
theorem blk1_read (t : Fin cfg0.N) (A : S200000x11.Idx → EReal) (p : Fin 2000) (k : Fin 11) (n : Fin 200000) (hn : n.val = 2000 * t.val + p.val) :
    ((cfg0.win 1).blk t).view.read (Elt Ideal) A (ix2 p k) = A (ix2 n k) := by
  have e0 : win0_1.index t (0 : Fin 2) = t.val := (idx_facts t).2.2.1
  have e1 : win0_1.index t (1 : Fin 2) = 0 := (idx_facts t).2.2.2.1
  rw [View.read_apply]
  refine congrArg A (funext fun a => Fin.ext ?_)
  match a with
  | ⟨0, _⟩ => show win0_1.index t (0 : Fin 2) * 2000 + 1 * p.val = n.val; rw [e0, hn]; omega
  | ⟨1, _⟩ => show win0_1.index t (1 : Fin 2) * 11 + 1 * k.val = k.val; rw [e1]; omega

/-- A block of window 2 read at row `p`: the array at node `2000 t + p`. -/
theorem blk2_read (t : Fin cfg0.N) (A : S200000x11.Idx → EReal) (p : Fin 2000) (k : Fin 11) (n : Fin 200000) (hn : n.val = 2000 * t.val + p.val) :
    ((cfg0.win 2).blk t).view.read (Elt Ideal) A (ix2 p k) = A (ix2 n k) := by
  have e0 : win0_2.index t (0 : Fin 2) = t.val := (idx_facts t).2.2.2.2.1
  have e1 : win0_2.index t (1 : Fin 2) = 0 := (idx_facts t).2.2.2.2.2.1
  rw [View.read_apply]
  refine congrArg A (funext fun a => Fin.ext ?_)
  match a with
  | ⟨0, _⟩ => show win0_2.index t (0 : Fin 2) * 2000 + 1 * p.val = n.val; rw [e0, hn]; omega
  | ⟨1, _⟩ => show win0_2.index t (1 : Fin 2) * 11 + 1 * k.val = k.val; rw [e1]; omega

/-- Window 3 stages its small array whole at every point. -/
theorem blk3_read (t : Fin cfg0.N) (A : S10x10.Idx → EReal) (k : Fin 10) (j : Fin 10) :
    ((cfg0.win 3).blk t).view.read (Elt Ideal) A (ix2 k j) = A (ix2 k j) := by
  have e0 : win0_3.index t (0 : Fin 2) = 0 := (idx_facts t).2.2.2.2.2.2.1
  have e1 : win0_3.index t (1 : Fin 2) = 0 := (idx_facts t).2.2.2.2.2.2.2.1
  rw [View.read_apply]
  refine congrArg A (funext fun a => Fin.ext ?_)
  match a with
  | ⟨0, _⟩ => show win0_3.index t (0 : Fin 2) * 10 + 1 * k.val = k.val; rw [e0]; omega
  | ⟨1, _⟩ => show win0_3.index t (1 : Fin 2) * 10 + 1 * j.val = j.val; rw [e1]; omega

/-- Window 4 stages its small array whole at every point. -/
theorem blk4_read (t : Fin cfg0.N) (A : S10x10.Idx → EReal) (k : Fin 10) (j : Fin 10) :
    ((cfg0.win 4).blk t).view.read (Elt Ideal) A (ix2 k j) = A (ix2 k j) := by
  have e0 : win0_4.index t (0 : Fin 2) = 0 := (idx_facts t).2.2.2.2.2.2.2.2.1
  have e1 : win0_4.index t (1 : Fin 2) = 0 := (idx_facts t).2.2.2.2.2.2.2.2.2.1
  rw [View.read_apply]
  refine congrArg A (funext fun a => Fin.ext ?_)
  match a with
  | ⟨0, _⟩ => show win0_4.index t (0 : Fin 2) * 10 + 1 * k.val = k.val; rw [e0]; omega
  | ⟨1, _⟩ => show win0_4.index t (1 : Fin 2) * 10 + 1 * j.val = j.val; rw [e1]; omega

/-- Window 5 stages its small array whole at every point. -/
theorem blk5_read (t : Fin cfg0.N) (A : S10x10.Idx → EReal) (k : Fin 10) (j : Fin 10) :
    ((cfg0.win 5).blk t).view.read (Elt Ideal) A (ix2 k j) = A (ix2 k j) := by
  have e0 : win0_5.index t (0 : Fin 2) = 0 := (idx_facts t).2.2.2.2.2.2.2.2.2.2.1
  have e1 : win0_5.index t (1 : Fin 2) = 0 := (idx_facts t).2.2.2.2.2.2.2.2.2.2.2.1
  rw [View.read_apply]
  refine congrArg A (funext fun a => Fin.ext ?_)
  match a with
  | ⟨0, _⟩ => show win0_5.index t (0 : Fin 2) * 10 + 1 * k.val = k.val; rw [e0]; omega
  | ⟨1, _⟩ => show win0_5.index t (1 : Fin 2) * 10 + 1 * j.val = j.val; rw [e1]; omega

/-- Window 6 stages its small array whole at every point. -/
theorem blk6_read (t : Fin cfg0.N) (A : S1x10.Idx → EReal) (k : Fin 1) (j : Fin 10) :
    ((cfg0.win 6).blk t).view.read (Elt Ideal) A (ix2 k j) = A (ix2 k j) := by
  have e0 : win0_6.index t (0 : Fin 2) = 0 := (idx_facts t).2.2.2.2.2.2.2.2.2.2.2.2.1
  have e1 : win0_6.index t (1 : Fin 2) = 0 := (idx_facts t).2.2.2.2.2.2.2.2.2.2.2.2.2.1
  rw [View.read_apply]
  refine congrArg A (funext fun a => Fin.ext ?_)
  match a with
  | ⟨0, _⟩ => show win0_6.index t (0 : Fin 2) * 1 + 1 * k.val = k.val; rw [e0]; omega
  | ⟨1, _⟩ => show win0_6.index t (1 : Fin 2) * 10 + 1 * j.val = j.val; rw [e1]; omega

/-- Window 7 stages its small array whole at every point. -/
theorem blk7_read (t : Fin cfg0.N) (A : S10x1.Idx → EReal) (k : Fin 10) (j : Fin 1) :
    ((cfg0.win 7).blk t).view.read (Elt Ideal) A (ix2 k j) = A (ix2 k j) := by
  have e0 : win0_7.index t (0 : Fin 2) = 0 := (idx_facts t).2.2.2.2.2.2.2.2.2.2.2.2.2.2.1
  have e1 : win0_7.index t (1 : Fin 2) = 0 := (idx_facts t).2.2.2.2.2.2.2.2.2.2.2.2.2.2.2.1
  rw [View.read_apply]
  refine congrArg A (funext fun a => Fin.ext ?_)
  match a with
  | ⟨0, _⟩ => show win0_7.index t (0 : Fin 2) * 10 + 1 * k.val = k.val; rw [e0]; omega
  | ⟨1, _⟩ => show win0_7.index t (1 : Fin 2) * 1 + 1 * j.val = j.val; rw [e1]; omega

/-- Window 8 stages its small array whole at every point. -/
theorem blk8_read (t : Fin cfg0.N) (A : S1x1.Idx → EReal) (k : Fin 1) (j : Fin 1) :
    ((cfg0.win 8).blk t).view.read (Elt Ideal) A (ix2 k j) = A (ix2 k j) := by
  have e0 : win0_8.index t (0 : Fin 2) = 0 := (idx_facts t).2.2.2.2.2.2.2.2.2.2.2.2.2.2.2.2.1
  have e1 : win0_8.index t (1 : Fin 2) = 0 := (idx_facts t).2.2.2.2.2.2.2.2.2.2.2.2.2.2.2.2.2.1
  rw [View.read_apply]
  refine congrArg A (funext fun a => Fin.ext ?_)
  match a with
  | ⟨0, _⟩ => show win0_8.index t (0 : Fin 2) * 1 + 1 * k.val = k.val; rw [e0]; omega
  | ⟨1, _⟩ => show win0_8.index t (1 : Fin 2) * 1 + 1 * j.val = j.val; rw [e1]; omega

/-- The row function at row `p` of output block `t` is the row formula at node `2000 t + p`. -/
theorem rowFn_emb (A0 : S200000x10.Idx → EReal) (A1 A2 : S200000x11.Idx → EReal) (A3 A4 A5 : S10x10.Idx → EReal)
    (A6 : S1x10.Idx → EReal) (A7 : S10x1.Idx → EReal) (A8 : S1x1.Idx → EReal)
    (t : Fin cfg0.N) (p : Fin 2000) (n : Fin 200000) (hn : n.val = 2000 * t.val + p.val) :
    rowFn A0 A1 A2 A3 A4 A5 A6 A7 A8 (((cfg0.win 9).blk t).view.emb (ix2 p (0 : Fin 1))) = rowOf A0 A1 A2 A3 A4 A5 A6 A7 A8 n := by
  have e0 : win0_9.index t (0 : Fin 2) = t.val := (idx_facts t).2.2.2.2.2.2.2.2.2.2.2.2.2.2.2.2.2.2.1
  unfold rowFn
  refine congrArg (rowOf A0 A1 A2 A3 A4 A5 A6 A7 A8) (Fin.ext ?_)
  show win0_9.index t (0 : Fin 2) * 2000 + 1 * p.val = n.val
  rw [e0, hn]; omega

/-- The body's result at row `p`, over blocks read off nine arrays, is the row formula of those arrays at node
    `2000 t + p`. -/
theorem body_blocks (A0 : S200000x10.Idx → EReal) (A1 A2 : S200000x11.Idx → EReal) (A3 A4 A5 : S10x10.Idx → EReal)
    (A6 : S1x10.Idx → EReal) (A7 : S10x1.Idx → EReal) (A8 : S1x1.Idx → EReal)
    (t : Fin cfg0.N) (p : Fin 2000) (n : Fin 200000) (hn : n.val = 2000 * t.val + p.val) :
    k0_pay1 (F := Ideal) (k0_pay2 (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (((cfg0.win 5).blk t).view.read (Elt Ideal) A5)
        (((cfg0.win 6).blk t).view.read (Elt Ideal) A6))
      (k0_pay3 (((cfg0.win 7).blk t).view.read (Elt Ideal) A7)) (((cfg0.win 8).blk t).view.read (Elt Ideal) A8) (ix2 p (0 : Fin 1))
      = rowOf A0 A1 A2 A3 A4 A5 A6 A7 A8 n := by
  refine (Cert.KernelIdeal.Payload.body_apply _ _ _ _ _ _ _ _ _ p).trans ?_
  unfold rowOf
  simp only [blk0_read t A0 p _ n hn, blk1_read t A1 p _ n hn, blk2_read t A2 p _ n hn, blk3_read t A3, blk4_read t A4,
    blk5_read t A5, blk6_read t A6, blk7_read t A7, blk8_read t A8]

end Cert.KernelIdeal.Blocks

end
-- ==== Proof.KernelRun.lean ====
/-
  The kernel's run, read: its result array is the fused row formula at every node.

  What grid point `t` writes back is rows `2000 t … 2000 t + 1999` of the result function; the 100 blocks of 2000 rows
  cover the 200000 rows (node `r` lies in block `r / 2000`); so the result array after the run is the result function.
-/
import proofs.«134058_j34986803593241_2_alg».proof.Proof.KernelBlocks

noncomputable section

open scoped BigOperators

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value

variable (m : (ℓ : Loc nD τ sig) → Buf (Elt Ideal) ℓ) (ρ : Dev nD → PrngReg)

/-- WHAT POINT `t` WRITES BACK is block `t` of the result function. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  unfold out0_9
  rw [View.canon_unit_zero hz]
  simp only [View.ld_unit_zero (S := S2000x10) hz, View.ld_unit_zero (S := S2000x11) hz, View.ld_unit_zero (S := S10x10) hz,
    View.ld_unit_zero (S := S1x10) hz, View.ld_unit_zero (S := S10x1) hz, View.ld_unit_zero (S := S1x1) hz]
  funext y
  obtain ⟨p, q, rfl⟩ : ∃ (p : Fin 2000) (q : Fin 1), y = ix2 p q := ⟨y 0, y 1, eq_ix2 y⟩
  obtain rfl : q = 0 := Subsingleton.elim _ _
  have hlt : 2000 * t.val + p.val < 200000 := by have := t_lt t; have := p.isLt; omega
  rw [View.read_apply]
  unfold G iblk
  rw [rowFn_emb _ _ _ _ _ _ _ _ _ t p ⟨2000 * t.val + p.val, hlt⟩ rfl]
  exact body_blocks _ _ _ _ _ _ _ _ _ t p ⟨2000 * t.val + p.val, hlt⟩ rfl

/-- An index of the result array is in point `t`'s block iff each coordinate is in the block's range on its axis. -/
theorem mem_blk (t : Fin cfg0.N) (i : S200000x1.Idx) :
    i ∈ ((cfg0.win 9).blk t).view.set ↔ ∀ a : Fin 2, win0_9.index t a * S2000x1.size a ≤ (i a).val ∧ (i a).val < win0_9.index t a * S2000x1.size a + S2000x1.size a := by
  show i ∈ ((View.whole main_v32).slice (win0_9.rect t)).set ↔ _
  rw [View.set_slice_whole, Rect.mem_set_unit]
  exact Iff.rfl

/-- Every block row is some point's. -/
theorem idx_onto : ∀ q0 : Fin 100, ∃ t : Fin cfg0.N, win0_9.index t = ![q0.val, 0] :=
  (by decide +kernel : ∀ q0 : Fin 100, ∃ t : Fin grid0.N, win0_9.index t = ![q0.val, 0])

/-- The 100 blocks of 2000 rows cover the 200000 rows: node `r` is in block `r / 2000`. -/
theorem cover (i : S200000x1.Idx) : ∃ t : Fin cfg0.N, (cfg0.win 9).flush t = true ∧ i ∈ ((cfg0.win 9).blk t).view.set := by
  have hi0 : (i 0).val < 200000 := (i 0).isLt
  have hi1 : (i 1).val < 1 := (i 1).isLt
  obtain ⟨t, ht⟩ := idx_onto ⟨(i 0).val / 2000, by omega⟩
  have q0 : win0_9.index t (0 : Fin 2) = (i 0).val / 2000 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 1 ≤ (i 1).val ∧ (i 1).val < win0_9.index t (1 : Fin 2) * 1 + 1; omega

/-- THE RESULT ARRAY after the run is the result function of the arrays the region finds. -/
theorem final (c : Dev nD) : (dats m 0 c).arrAt 9 cfg0.N = G m c :=
  (dats m 0 c).arrAt_eq_of_cover 9 (G m c) (fun t _ => flushed_eq m c t) cover

/-- The kernel's run, read: the result array at the result function, the arguments unchanged. -/
theorem run : θ_run defs (onTc (τ := τ) (main (F := Ideal))) ⟨m, fun _ => 0, ρ⟩ fun r => ∀ c : Dev nD,
      r.2.mem ((c : Thread nD τ).loc main_v32) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (Cert.KernelIdeal.Value.run_blocks m ρ)

end Cert.KernelIdeal.Blocks

end
-- ==== Proof.KernelHost.lean ====
/-
  What the kernel region finds in its windows' arrays: the values the host operations before the
  region leave, as functions of the launch arrays.

  Two of them are the relations' aggregates: for a table `h` of `M` rows, a ones column is appended
  (so column 10 counts), row `src e` (a negative index wrapped by `M`) is gathered for every edge `e`,
  and the gathered rows are summed into row `dst e` of a zero array — ten summed features and the
  in-degree. The others are entrywise: a sum of two weight matrices, a sum of two bias vectors laid out
  as one row, and plain copies (rounding to the narrower format is the identity on extended reals; a
  reshape that only adds a unit axis moves no entry).
-/
import proofs.«134058_j34986803593241_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostVals

open Cert.KernelIdeal Cert.KernelIdeal.Gen Idealize.ShloMosaic Idealize.ShloMosaic.ValueIdx Idealize.ShloMosaic.TcCoe Idealize.SL.Sem

/-- The start rows: a negative source index wrapped by the table's length `M`, as a column. -/
def startRows (M : BitVec 32) (src : IVec S8000000 32) : IVec S8000000x1 32 :=
  broadcastInDim S8000000x1 ![0] bcast_S8000000_S8000000x1_0
    (select (cmpi .slt src (broadcastInDim S8000000 ![] bcast_S_S8000000 (constantI S_ 32 0#32)))
      (addi src (broadcastInDim S8000000 ![] bcast_S_S8000000 (constantI S_ 32 M))) src)

/-- The first relation's aggregate: ten summed features and the degree in column 10. -/
def aggTok (h : FVec Ideal S500000x10 .f32) (src dst : IVec S8000000 32) : FVec Ideal S200000x11 .f32 :=
  Host.scatterAdd scatter_S200000x11_S8000000x1_S8000000x11_1_0_0_1
    (broadcastInDim S200000x11 ![] bcast_S_S200000x11 (constant (F := Ideal) S_ .f32 0x00000000#32))
    (broadcastInDim S8000000x1 ![0] bcast_S8000000_S8000000x1_0 dst)
    (Host.gather gather_S500000x11_S8000000x1_S8000000x11_1_0_n_n_0_1_111
      (concatenate S500000x11 1 [⟨S500000x10, h⟩, ⟨S500000x1, broadcastInDim S500000x1 ![] bcast_S_S500000x1 (constant (F := Ideal) S_ .f32 0x3F800000#32)⟩]
        concatenates_S500000x10_S500000x1_S500000x11_d1)
      (startRows 500000#32 src))

/-- The second relation's aggregate: the same over the table of 300000 rows. -/
def aggArt (h : FVec Ideal S300000x10 .f32) (src dst : IVec S8000000 32) : FVec Ideal S200000x11 .f32 :=
  Host.scatterAdd scatter_S200000x11_S8000000x1_S8000000x11_1_0_0_1
    (broadcastInDim S200000x11 ![] bcast_S_S200000x11 (constant (F := Ideal) S_ .f32 0x00000000#32))
    (broadcastInDim S8000000x1 ![0] bcast_S8000000_S8000000x1_0 dst)
    (Host.gather gather_S300000x11_S8000000x1_S8000000x11_1_0_n_n_0_1_111
      (concatenate S300000x11 1 [⟨S300000x10, h⟩, ⟨S300000x1, broadcastInDim S300000x1 ![] bcast_S_S300000x1 (constant (F := Ideal) S_ .f32 0x3F800000#32)⟩]
        concatenates_S300000x10_S300000x1_S300000x11_d1)
      (startRows 300000#32 src))

variable (m : (ℓ : Loc nD τ sig) → Buf (Elt Ideal) ℓ) (c : Dev nD)

/-! ## The two aggregates -/

/-- The first aggregate, over launch arrays 1 (table), 3 (sources), 4 (destinations). -/
theorem V_v11 : (V m c main_v11 : S200000x11.Idx → EReal) = aggTok (m ((c : Thread nD τ).loc main_arg1)) (m ((c : Thread nD τ).loc main_arg3)) (m ((c : Thread nD τ).loc main_arg4)) := by
  dsimp only [Gen.V, Gen.hostOps0]
  after_results_simp
  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))
  unfold aggTok startRows
  rfl

/-- The second aggregate, over launch arrays 2 (table), 5 (sources), 6 (destinations). -/
theorem V_v23 : (V m c main_v23 : S200000x11.Idx → EReal) = aggArt (m ((c : Thread nD τ).loc main_arg2)) (m ((c : Thread nD τ).loc main_arg5)) (m ((c : Thread nD τ).loc main_arg6)) := by
  dsimp only [Gen.V, Gen.hostOps0]
  after_results_simp
  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))
  unfold aggArt startRows
  rfl

/-! ## The weights and biases, as whole arrays -/

theorem V_v27 : (V m c main_v27 : S10x10.Idx → EReal)
    = (truncf .bf16 (addf ((m ((c : Thread nD τ).loc main_arg7)) : FVec Ideal S10x10 .f32) (m ((c : Thread nD τ).loc main_arg10))) bitsLt_bf16_f32 : FVec Ideal S10x10 .bf16) := by
  dsimp only [Gen.V, Gen.hostOps0]; after_results_simp <;> rfl

theorem V_v28 : (V m c main_v28 : S10x10.Idx → EReal)
    = (truncf .bf16 ((m ((c : Thread nD τ).loc main_arg8)) : FVec Ideal S10x10 .f32) bitsLt_bf16_f32 : FVec Ideal S10x10 .bf16) := by
  dsimp only [Gen.V, Gen.hostOps0]; after_results_simp <;> rfl

theorem V_v29 : (V m c main_v29 : S10x10.Idx → EReal)
    = (truncf .bf16 ((m ((c : Thread nD τ).loc main_arg11)) : FVec Ideal S10x10 .f32) bitsLt_bf16_f32 : FVec Ideal S10x10 .bf16) := by
  dsimp only [Gen.V, Gen.hostOps0]; after_results_simp <;> rfl

theorem V_v30 : (V m c main_v30 : S10x1.Idx → EReal)
    = (truncf .bf16 ((m ((c : Thread nD τ).loc main_arg13)) : FVec Ideal S10x1 .f32) bitsLt_bf16_f32 : FVec Ideal S10x1 .bf16) := by
  dsimp only [Gen.V, Gen.hostOps0]; after_results_simp <;> rfl

theorem V_v26 : (V m c main_v26 : S1x10.Idx → EReal)
    = (shapeCast S1x10 (addf ((m ((c : Thread nD τ).loc main_arg9)) : FVec Ideal S10 .f32) (m ((c : Thread nD τ).loc main_arg12))) shapeCasts_S10_S1x10 : FVec Ideal S1x10 .f32) := by
  dsimp only [Gen.V, Gen.hostOps0]; after_results_simp <;> rfl

theorem V_v31 : (V m c main_v31 : S1x1.Idx → EReal)
    = (shapeCast S1x1 ((m ((c : Thread nD τ).loc main_arg14)) : FVec Ideal S1 .f32) shapeCasts_S1_S1x1 : FVec Ideal S1x1 .f32) := by
  dsimp only [Gen.V, Gen.hostOps0]; after_results_simp <;> rfl

/-! ## The same, entry by entry -/

/-- The combined self-weight: entry `(k, j)` is the sum of the two matrices' entries. -/
theorem V_v27_apply (k j : Fin 10) : (V m c main_v27 : S10x10.Idx → EReal) (ix2 k j)
    = @HAdd.hAdd EReal EReal EReal _ (((m ((c : Thread nD τ).loc main_arg7)) : S10x10.Idx → EReal) (ix2 k j)) (((m ((c : Thread nD τ).loc main_arg10)) : S10x10.Idx → EReal) (ix2 k j)) :=
  congrFun (V_v27 m c) (ix2 k j)

theorem V_v28_apply (k j : Fin 10) : (V m c main_v28 : S10x10.Idx → EReal) (ix2 k j)
    = ((m ((c : Thread nD τ).loc main_arg8)) : S10x10.Idx → EReal) (ix2 k j) :=
  congrFun (V_v28 m c) (ix2 k j)

theorem V_v29_apply (k j : Fin 10) : (V m c main_v29 : S10x10.Idx → EReal) (ix2 k j)
    = ((m ((c : Thread nD τ).loc main_arg11)) : S10x10.Idx → EReal) (ix2 k j) :=
  congrFun (V_v29 m c) (ix2 k j)

theorem V_v30_apply (j : Fin 10) : (V m c main_v30 : S10x1.Idx → EReal) (ix2 j (0 : Fin 1))
    = ((m ((c : Thread nD τ).loc main_arg13)) : S10x1.Idx → EReal) (ix2 j (0 : Fin 1)) :=
  congrFun (V_v30 m c) (ix2 j (0 : Fin 1))

/-- The combined bias, laid out as one row: entry `(0, j)` is the sum of the two vectors' entries `j`. -/
theorem V_v26_apply (j : Fin 10) : (V m c main_v26 : S1x10.Idx → EReal) (ix2 (0 : Fin 1) j)
    = @HAdd.hAdd EReal EReal EReal _ (((m ((c : Thread nD τ).loc main_arg9)) : S10.Idx → EReal) (ix1 j)) (((m ((c : Thread nD τ).loc main_arg12)) : S10.Idx → EReal) (ix1 j)) := by
  rw [V_v26]
  exact shapeCast_a_1a_apply (a := 10) _ _ (0 : Fin 1) j

theorem V_v31_apply : (V m c main_v31 : S1x1.Idx → EReal) (ix2 (0 : Fin 1) (0 : Fin 1))
    = ((m ((c : Thread nD τ).loc main_arg14)) : S1.Idx → EReal) (ix1 (0 : Fin 1)) := by
  rw [V_v31]
  exact shapeCast_a_1a_apply (a := 1) _ _ (0 : Fin 1) (0 : Fin 1)

end Cert.KernelIdeal.HostVals
-- ==== Proof.Finite.lean ====
/-
  From the certificate's precondition to "these input arrays hold real numbers".

  The precondition is the conjunction, over every floating-point input array `x`, of the statement
  "`|x i| < +∞` at every index `i`", written as a reduction by `and` over the whole array of the
  elementwise comparison of `max (x i) (-(x i))` against the top element. On extended reals
  `max x (-x) < ⊤` excludes both `x = ⊤` and `x = ⊥` (there `-x = ⊤`), so `x` is the coercion
  of a real number. The reduction is never evaluated: a reduction by `and` that is 1 had a 1 at every
  operand index.
-/
import proofs.«134058_j34986803593241_2_alg».proof.Defs
import Idealize.ShloMosaic.Lib.ReduceAll
import Idealize.ShloMosaic.Lib.ValueIdx

namespace Cert.Finite

open Idealize.ShloMosaic Idealize.SL.Sem

/-- The rank-0 shape has exactly one index. -/
instance : Subsingleton Cert.Pre_finite_inputs.S_.Idx := ⟨fun a b => funext fun d => d.elim0⟩

/-- An extended real whose absolute value `max x (-x)` is strictly below the pattern of `+∞`
    (which denotes `⊤`) is a real number: `x = ⊤` gives `max ⊤ ⊥ = ⊤`, `x = ⊥` gives `max ⊥ ⊤ = ⊤`,
    and `⊤ < ⊤` is false. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- One conjunct of the precondition, for an array `x` of any shape `s`: if the reduction by `and` over
    all of `s` of the comparison `|x i| < +∞` is 1, then every `x i` is a real number. The reduction is
    read back symbolically (every operand of an `and`-reduction that is 1 is 1); at one index the
    comparison is, by definition of the elementwise operations, the scalar fact above. -/
theorem all_real {s : Shape} {axes : List (Fin s.rank)}
    (hb : Cert.Pre_finite_inputs.S_.BroadcastsInDim s (![] : Fin 0 → Fin s.rank))
    (hr : s.ReducesTo axes Cert.Pre_finite_inputs.S_) (hS : 0 < Cert.Pre_finite_inputs.S_.numel)
    (x : FVec Ideal s .f32) (init : IVec Cert.Pre_finite_inputs.S_ 1) (j : Cert.Pre_finite_inputs.S_.Idx)
    (e : Host.reduce IntOp.andi
          (cmpf .olt (Host.absf x)
            (broadcastInDim s ![] hb (constant Cert.Pre_finite_inputs.S_ .f32 0x7F800000#32)))
          init hr hS j = 1#1)
    (i : s.Idx) : ∃ r : ℝ, x i = (r : EReal) :=
  real_of_abs_lt_top (x i) (Host.reduce_andi_all _ init hr hS j e i)

open Cert.Pre_finite_inputs in
/-- The precondition, decoded: it is a left-nested conjunction of eleven reductions, one per
    floating-point input; the conjuncts of inputs 0, 7 and 10 say those arrays hold real numbers. -/
theorem fn_reals [Cert.Pre_finite_inputs.Facts]
    (a0 : FVec Ideal S200000x10 .f32) (a1 : FVec Ideal S500000x10 .f32) (a2 : FVec Ideal S300000x10 .f32)
    (a3 a4 a5 a6 : IVec S8000000 32)
    (a7 a8 : FVec Ideal S10x10 .f32) (a9 : FVec Ideal S10 .f32) (a10 a11 : FVec Ideal S10x10 .f32)
    (a12 : FVec Ideal S10 .f32) (a13 : FVec Ideal S10x1 .f32) (a14 : FVec Ideal S1 .f32)
    (h : Cert.Pre_finite_inputs.fn (F := Ideal) a0 a1 a2 a3 a4 a5 a6 a7 a8 a9 a10 a11 a12 a13 a14 = fun _ => 1#1) :
    (∀ i, ∃ r : ℝ, a0 i = (r : EReal)) ∧ (∀ i, ∃ r : ℝ, a7 i = (r : EReal)) ∧ (∀ i, ∃ r : ℝ, a10 i = (r : EReal)) := by
  have e := congrFun h ValueIdx.ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨e0, _⟩, _⟩, e7⟩, _⟩, _⟩, e10⟩, _⟩, _⟩, _⟩, _⟩ := e
  exact ⟨fun i => all_real _ _ _ a0 _ _ e0 i, fun i => all_real _ _ _ a7 _ _ e7 i,
    fun i => all_real _ _ _ a10 _ _ e10 i⟩

/-- Every entry of input 0 (the destination features, 200000 × 10) is a real number. -/
theorem arg0_real [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S200000x10.Idx) :
    ∃ r : ℝ, (m ((c.tc : Thread Cert.KernelIdeal.nD Cert.KernelIdeal.τ).loc Cert.KernelIdeal.main_arg0) :
      Cert.KernelIdeal.S200000x10.Idx → EReal) i = (r : EReal) :=
  (fn_reals _ _ _ _ _ _ _ _ _ _ _ _ _ _ _ (h c)).1 i

/-- Every entry of input 7 (a 10 × 10 self-weight matrix) is a real number. -/
theorem arg7_real [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S10x10.Idx) :
    ∃ r : ℝ, (m ((c.tc : Thread Cert.KernelIdeal.nD Cert.KernelIdeal.τ).loc Cert.KernelIdeal.main_arg7) :
      Cert.KernelIdeal.S10x10.Idx → EReal) i = (r : EReal) :=
  (fn_reals _ _ _ _ _ _ _ _ _ _ _ _ _ _ _ (h c)).2.1 i

/-- Every entry of input 10 (the other 10 × 10 self-weight matrix) is a real number. -/
theorem arg10_real [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S10x10.Idx) :
    ∃ r : ℝ, (m ((c.tc : Thread Cert.KernelIdeal.nD Cert.KernelIdeal.τ).loc Cert.KernelIdeal.main_arg10) :
      Cert.KernelIdeal.S10x10.Idx → EReal) i = (r : EReal) :=
  (fn_reals _ _ _ _ _ _ _ _ _ _ _ _ _ _ _ (h c)).2.2 i

end Cert.Finite
-- ==== Proof.RefValue.lean ====
/-
  The reference program at a destination node.

  The reference computes, per relation, the neighbour sums by a scatter-add of gathered source rows and the degree by a
  scatter-add of ones; divides the sums by the degree guarded below by one; applies the relation's two weight matrices and
  bias; adds the two relations' outputs; and reads out through a 10 × 1 column plus an offset. Read at node `n` — with
  the four scatter results kept as they are — this is the split row formula of the specification.
-/
import proofs.«134058_j34986803593241_2_alg».proof.Proof.Gen.ReferenceIdeal.Read
import proofs.«134058_j34986803593241_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- Two rank-2 indices with equal coordinates are equal. -/
theorem idx2_ext {n0 n1 : ℕ} (f g : (⟨2, ![n0, n1]⟩ : Shape).Idx) (h0 : (f 0).val = (g 0).val) (h1 : (f 1).val = (g 1).val) :
    f = g := funext fun a => Fin.ext (by
  match a with
  | ⟨0, _⟩ => exact h0
  | ⟨1, _⟩ => exact h1)

/-- Two rank-1 indices with equal coordinates are equal. -/
theorem idx1_ext {n0 : ℕ} (f g : (⟨1, ![n0]⟩ : Shape).Idx) (h0 : (f 0).val = (g 0).val) : f = g :=
  funext fun a => Fin.ext (by
  match a with
  | ⟨0, _⟩ => exact h0)

/-- The first relation's guarded mean at (n, k): the scattered sum over the scattered degree guarded below by one. -/
theorem mean_tok (x1 : (⟨S500000x10, .f32⟩ : BufTy).Contents (Elt Ideal)) (x3 x4 : (⟨S8000000, .i32⟩ : BufTy).Contents (Elt Ideal))
    (n : Fin 200000) (k : Fin 10) :
    val_main_v18 (F := Ideal) x1 x3 x4 (ix2 n k)
      = Cert.Spec.mean (val_main_v9 (F := Ideal) x1 x3 x4 (ix2 n k)) (val_main_v13 (F := Ideal) x4 (ix1 n)) := by
  rw [val_main_v18_apply, val_main_v17_apply, val_main_v16_apply, val_main_v15_apply, val_main_v14_apply, val_main_cst_3_apply,
    idx1_ext (idx_main_v16 (idx_main_v17 (ix2 n k))) (ix1 n) rfl]
  rfl

/-- The second relation's guarded mean at (n, k). -/
theorem mean_art (x2 : (⟨S300000x10, .f32⟩ : BufTy).Contents (Elt Ideal)) (x5 x6 : (⟨S8000000, .i32⟩ : BufTy).Contents (Elt Ideal))
    (n : Fin 200000) (k : Fin 10) :
    val_main_v43 (F := Ideal) x2 x5 x6 (ix2 n k)
      = Cert.Spec.mean (val_main_v34 (F := Ideal) x2 x5 x6 (ix2 n k)) (val_main_v38 (F := Ideal) x6 (ix1 n)) := by
  rw [val_main_v43_apply, val_main_v42_apply, val_main_v41_apply, val_main_v40_apply, val_main_v39_apply, val_main_cst_9_apply,
    idx1_ext (idx_main_v41 (idx_main_v42 (ix2 n k))) (ix1 n) rfl]
  rfl

/-- THE REFERENCE AT NODE `n`: the split row formula at the node's features, the two relations' guarded means of the
    scattered sums, and the weights. -/
theorem ref_row (x0 : (⟨S200000x10, .f32⟩ : BufTy).Contents (Elt Ideal)) (x1 : (⟨S500000x10, .f32⟩ : BufTy).Contents (Elt Ideal))
    (x2 : (⟨S300000x10, .f32⟩ : BufTy).Contents (Elt Ideal)) (x3 x4 x5 x6 : (⟨S8000000, .i32⟩ : BufTy).Contents (Elt Ideal))
    (x7 x8 : (⟨S10x10, .f32⟩ : BufTy).Contents (Elt Ideal)) (x9 : (⟨S10, .f32⟩ : BufTy).Contents (Elt Ideal))
    (x10 x11 : (⟨S10x10, .f32⟩ : BufTy).Contents (Elt Ideal)) (x12 : (⟨S10, .f32⟩ : BufTy).Contents (Elt Ideal))
    (x13 : (⟨S10x1, .f32⟩ : BufTy).Contents (Elt Ideal)) (x14 : (⟨S1, .f32⟩ : BufTy).Contents (Elt Ideal)) (n : Fin 200000) :
    val_main_v54 (F := Ideal) x0 x1 x2 x3 x4 x5 x6 x7 x8 x9 x10 x11 x12 x13 x14 (ix2 n (0 : Fin 1))
      = Cert.Spec.splitRow (fun k => x0 (ix2 n k))
          (fun k => Cert.Spec.mean (val_main_v9 (F := Ideal) x1 x3 x4 (ix2 n k)) (val_main_v13 (F := Ideal) x4 (ix1 n)))
          (fun k => Cert.Spec.mean (val_main_v34 (F := Ideal) x2 x5 x6 (ix2 n k)) (val_main_v38 (F := Ideal) x6 (ix1 n)))
          (fun k j => x7 (ix2 k j)) (fun k j => x8 (ix2 k j)) (fun j => x9 (ix1 j))
          (fun k j => x10 (ix2 k j)) (fun k j => x11 (ix2 k j)) (fun j => x12 (ix1 j))
          (fun j => x13 (ix2 j (0 : Fin 1))) (x14 (ix1 (0 : Fin 1))) := by
  unfold Cert.Spec.splitRow
  rw [val_main_v54_apply, val_main_v51_apply, val_main_v53_apply, val_main_v52_apply]
  refine congrArg₂ (· + ·) (Finset.sum_congr rfl fun j _ => ?_) ?_
  · rw [idx2_ext (lidx_main_v51 (ix2 n (0 : Fin 1)) j) (ix2 n j) rfl rfl,
      idx2_ext (ridx_main_v51 (ix2 n (0 : Fin 1)) j) (ix2 j (0 : Fin 1)) rfl rfl,
      val_main_v50_apply, val_main_v24_apply, val_main_v21_apply, val_main_v19_apply, val_main_v20_apply,
      val_main_v23_apply, val_main_v22_apply, val_main_v49_apply, val_main_v46_apply, val_main_v44_apply, val_main_v45_apply,
      val_main_v48_apply, val_main_v47_apply,
      idx1_ext (idx_main_v22 (idx_main_v23 (ix2 n j))) (ix1 j) rfl,
      idx1_ext (idx_main_v47 (idx_main_v48 (ix2 n j))) (ix1 j) rfl]
    have e19l : ∀ k, lidx_main_v19 (ix2 n j) k = ix2 n k := fun k => idx2_ext _ _ rfl rfl
    have e19r : ∀ k, ridx_main_v19 (ix2 n j) k = ix2 k j := fun k => idx2_ext _ _ rfl rfl
    have e20l : ∀ k, lidx_main_v20 (ix2 n j) k = ix2 n k := fun k => idx2_ext _ _ rfl rfl
    have e20r : ∀ k, ridx_main_v20 (ix2 n j) k = ix2 k j := fun k => idx2_ext _ _ rfl rfl
    have e44l : ∀ k, lidx_main_v44 (ix2 n j) k = ix2 n k := fun k => idx2_ext _ _ rfl rfl
    have e44r : ∀ k, ridx_main_v44 (ix2 n j) k = ix2 k j := fun k => idx2_ext _ _ rfl rfl
    have e45l : ∀ k, lidx_main_v45 (ix2 n j) k = ix2 n k := fun k => idx2_ext _ _ rfl rfl
    have e45r : ∀ k, ridx_main_v45 (ix2 n j) k = ix2 k j := fun k => idx2_ext _ _ rfl rfl
    simp only [e19l, e19r, e20l, e20r, e44l, e44r, e45l, e45r, mean_tok, mean_art, Ideal.addf_def]
  · rw [idx1_ext (idx_main_v52 (idx_main_v53 (ix2 n (0 : Fin 1)))) (ix1 (0 : Fin 1)) rfl]

end Cert.ReferenceIdeal.RefValue

end
-- ==== Proof.LibSegment.lean ====
/-
  A row gather and a row scatter-add, read at one index.

  Gathering whole rows of an `[M, C]` table at a column `[E, 1]` of row numbers gives an `[E, C]` array whose entry
  `(e, c)` is the table's entry `(r, c)`, `r` the `e`-th row number read as a signed integer and clamped into
  `[0, M - 1]`. Scatter-adding the rows of an `[E, C]` array of updates into an `[N, C]` operand at a column
  `[E, 1]` of destination rows gives, at `(n, c)`, the operand's entry plus the sum over all `e` whose destination,
  read as a signed integer, is exactly `n`, of the update's entry `(e, c)` (a destination outside `[0, N)` contributes
  nothing, since it equals no `n`). The same holds for an `[E]` vector of updates scatter-added into an `[N]` vector.
  The scatter statements are at the exact-arithmetic instance (entries are extended reals), where the sum's order does
  not matter. All extents are arbitrary naturals; nothing here enumerates an index set.
-/
import Idealize.ShloMosaic.Lib.ValueIdx

noncomputable section

open scoped BigOperators

namespace Cert.LibSegment

open Idealize.ShloMosaic Idealize.ShloMosaic.ValueIdx

/-! ## The dimension numbers -/

/-- Scatter of `[E, C]` update rows into an `[N, C]` operand at `[E, 1]` destination rows: the update's axis 1 is the
    window (a whole row), operand axis 0 is the inserted one the index names. -/
abbrev rowScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Scatter of an `[E]` vector of updates into an `[N]` operand at `[E, 1]` destinations: no window axis. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Gather of whole rows of an `[M, C]` table at `[E, 1]` row numbers: slices `[1, C]`, operand axis 0 collapsed, the
    result's axis 1 the offset along the row. -/
abbrev rowGather (M E C : ℕ) (wf : GatherDims.WF ⟨2, ![M, C]⟩ ⟨2, ![E, 1]⟩ ⟨2, ![E, C]⟩ [1] [0] [] [0] [] 1 ![1, C]) :
    GatherDims ⟨2, ![M, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, M - 1]`. -/
def clampRow (M : ℕ) (hM : 0 < M) {w : ℕ} (z : BitVec w) : Fin M := ⟨min z.toInt.toNat (M - 1), by omega⟩

/-! ## The gather at an index -/

/-- THE ROW GATHER READ AT `(e, c)`: the table at the clamped row the `e`-th start index names, column `c`. -/
theorem gather_rows_apply {α : Type} {M E C w : ℕ} (hM : 0 < M)
    (wf : GatherDims.WF ⟨2, ![M, C]⟩ ⟨2, ![E, 1]⟩ ⟨2, ![E, C]⟩ [1] [0] [] [0] [] 1 ![1, C])
    (x : (⟨2, ![M, C]⟩ : Shape).Idx → α) (idx : IVec ⟨2, ![E, 1]⟩ w) (e : Fin E) (c : Fin C) :
    Host.gather (rowGather M E C wf) x idx (ix2 e c) = x (ix2 (clampRow M hM (idx (ix2 e (0 : Fin 1)))) c) := by
  unfold Host.gather
  congr 1
  funext a
  refine Fin.ext ?_
  match a with
  | ⟨0, _⟩ =>
    show (rowGather M E C wf).start (ix2 e c) idx (0 : Fin 2) + (rowGather M E C wf).batchCoord (ix2 e c) (0 : Fin 2)
      + (rowGather M E C wf).offCoord (ix2 e c) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather M E C wf).startIndexMap from List.mem_singleton.mpr rfl)]
    have hsi : (rowGather M E C wf).siIdx (ix2 e c) ⟨List.idxOf (0 : Fin 2) (rowGather M E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather M E C wf).start (ix2 e c) idx (1 : Fin 2) + (rowGather M E C wf).batchCoord (ix2 e c) (1 : Fin 2)
      + (rowGather M E C wf).offCoord (ix2 e c) (1 : Fin 2) = c.val
    rw [GatherDims.batchCoord_eq_zero _ _ _ List.not_mem_nil]
    have hs : (rowGather M E C wf).start (ix2 e c) idx (1 : Fin 2) = 0 := rfl
    have ho : (rowGather M E C wf).offCoord (ix2 e c) (1 : Fin 2) = c.val := rfl
    rw [hs, ho]; omega

/-! ## Where an update lands -/

/-- An update index lands on operand index `i` exactly when, on every operand axis, start plus window coordinate is
    `i`'s coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hall
      have h' := congrArg Fin.val (congrFun (Option.some.inj h) a)
      simp only at h'
      have := hall a
      omega
    · exact absurd h (by simp)
  · intro h
    have hall : ∀ a, 0 ≤ d.start j idx a + (d.window j a : ℤ) ∧ d.start j idx a + (d.window j a : ℤ) < s.size a := by
      intro a; rw [h a]; exact ⟨Int.natCast_nonneg _, by exact_mod_cast (i a).isLt⟩
    rw [dif_pos hall]
    congr 1
    funext a
    refine Fin.ext ?_
    show (d.start j idx a + (d.window j a : ℤ)).toNat = (i a).val
    rw [h a]; exact Int.toNat_natCast _

section Rows
variable {N E C w : ℕ} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window starts at the `e`-th destination, read signed. -/
theorem rowScatter_start0 :
    (rowScatter N E C wf).start (ix2 e c') idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e c') ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The row-scatter's update `(e, c')` lands on `(n, c)` exactly when the `e`-th destination is `n` and `c' = c`. -/
theorem rowScatter_resultIdx?_iff (n : Fin N) (c : Fin C) :
    (rowScatter N E C wf).resultIdx? (ix2 e c') idx = some (ix2 n c)
      ↔ (idx (ix2 e (0 : Fin 1))).toInt = (n.val : ℤ) ∧ c' = c := by
  rw [resultIdx?_eq_some_iff]
  have hw0 : (rowScatter N E C wf).window (ix2 e c') (0 : Fin 2) = 0 := rfl
  have hs1 : (rowScatter N E C wf).start (ix2 e c') idx (1 : Fin 2) = 0 := rfl
  have hw1 : (rowScatter N E C wf).window (ix2 e c') (1 : Fin 2) = c'.val := rfl
  constructor
  · intro h
    have h0 := h (0 : Fin 2)
    have h1 := h (1 : Fin 2)
    rw [rowScatter_start0, hw0] at h0
    rw [hs1, hw1] at h1
    have h0' : (idx (ix2 e (0 : Fin 1))).toInt + ((0 : ℕ) : ℤ) = (n.val : ℤ) := h0
    have h1' : (0 : ℤ) + (c'.val : ℤ) = (c.val : ℤ) := h1
    exact ⟨by omega, Fin.ext (by omega)⟩
  · rintro ⟨hz, rfl⟩ a
    match a with
    | ⟨0, _⟩ =>
      show (rowScatter N E C wf).start (ix2 e c') idx (0 : Fin 2) + ((rowScatter N E C wf).window (ix2 e c') (0 : Fin 2) : ℤ) = (n.val : ℤ)
      rw [rowScatter_start0, hw0, hz]; simp
    | ⟨1, _⟩ =>
      show (rowScatter N E C wf).start (ix2 e c') idx (1 : Fin 2) + ((rowScatter N E C wf).window (ix2 e c') (1 : Fin 2) : ℤ) = (c'.val : ℤ)
      rw [hs1, hw1]; simp

end Rows

/-! ## The row scatter-add at an index -/

/-- THE ROW SCATTER-ADD READ AT `(n, c)`: the operand's entry plus the sum, over the updates `e` whose destination is
    `n`, of the update's entry `(e, c)`. -/
theorem scatterAdd_rows_apply {N E C w : ℕ} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (F := Ideal) (rowScatter N E C wf) x idx upd (ix2 n c)
      = x (ix2 n c) + ∑ e : Fin E, if (idx (ix2 e (0 : Fin 1))).toInt = (n.val : ℤ) then upd (ix2 e c) else 0 := by
  show Ideal.hostScatterAdd (rowScatter N E C wf) x idx upd (ix2 n c) = _
  unfold Ideal.hostScatterAdd
  congr 1
  rw [Finset.sum_filter, sum_idx2]
  refine Finset.sum_congr rfl fun e _ => ?_
  simp only [rowScatter_resultIdx?_iff]
  by_cases hz : (idx (ix2 e (0 : Fin 1))).toInt = (n.val : ℤ)
  · simp only [hz, true_and, if_true]
    rw [Finset.sum_ite_eq' Finset.univ c (fun c' => upd (ix2 e c'))]
    simp
  · simp only [hz, false_and, if_false]
    exact Finset.sum_const_zero

/-! ## The vector scatter-add at an index -/

/-- A rank-1 index set is its one coordinate range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Vec
variable {N E w : ℕ} (wf : ScatterDims.WF ⟨1, ![N]⟩ ⟨2, ![E, 1]⟩ ⟨1, ![E]⟩ [] [0] [0] 1)
  (idx : IVec ⟨2, ![E, 1]⟩ w) (e : Fin E)

/-- On the operand's one axis the window starts at the `e`-th destination, read signed. -/
theorem vecScatter_start0 :
    (vecScatter N E wf).start (ix1 e) idx (0 : Fin 1) = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The vector scatter's update `e` lands on `n` exactly when the `e`-th destination is `n`. -/
theorem vecScatter_resultIdx?_iff (n : Fin N) :
    (vecScatter N E wf).resultIdx? (ix1 e) idx = some (ix1 n) ↔ (idx (ix2 e (0 : Fin 1))).toInt = (n.val : ℤ) := by
  rw [resultIdx?_eq_some_iff]
  have hw0 : (vecScatter N E wf).window (ix1 e) (0 : Fin 1) = 0 := rfl
  constructor
  · intro h
    have h0 := h (0 : Fin 1)
    rw [vecScatter_start0, hw0] at h0
    have h0' : (idx (ix2 e (0 : Fin 1))).toInt + ((0 : ℕ) : ℤ) = (n.val : ℤ) := h0
    omega
  · intro hz a
    match a with
    | ⟨0, _⟩ =>
      show (vecScatter N E wf).start (ix1 e) idx (0 : Fin 1) + ((vecScatter N E wf).window (ix1 e) (0 : Fin 1) : ℤ) = (n.val : ℤ)
      rw [vecScatter_start0, hw0, hz]; simp

end Vec

/-- THE VECTOR SCATTER-ADD READ AT `n`: the operand's entry plus the sum, over the updates `e` whose destination is `n`,
    of the update's entry `e`. -/
theorem scatterAdd_vec_apply {N E w : ℕ} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecScatter N E wf) x idx upd (ix1 n)
      = x (ix1 n) + ∑ e : Fin E, if (idx (ix2 e (0 : Fin 1))).toInt = (n.val : ℤ) then upd (ix1 e) else 0 := by
  show Ideal.hostScatterAdd (vecScatter N E wf) x idx upd (ix1 n) = _
  unfold Ideal.hostScatterAdd
  congr 1
  rw [Finset.sum_filter, sum_idx1]
  refine Finset.sum_congr rfl fun e _ => ?_
  simp only [vecScatter_resultIdx?_iff]

end Cert.LibSegment

end
-- ==== Proof.LibAugment.lean ====
/-
  Aggregating a table with an appended column of ones.

  Append to a table `h : [M, 10]` one more column `o : [M, 1]`, gather rows of the `[M, 11]` table at the start rows `I`,
  and scatter-add the gathered rows at the destinations `D`. Column `k < 10` of the result is what gathering and
  scatter-adding `h` alone gives in column `k`: at `(n, k)` both are the initial entry plus the sum, over the `e` with
  destination `n`, of `h` at the clamped start row of `e`, column `k`. Column `10` is the scatter-add of a vector of the
  appended column's values: when that column is constant and equal to the entries of a vector `ones : [E]`, it is the
  scatter-add of `ones` at `D` — for a column of ones, the number of `e` with destination `n`. Entries are extended
  reals (exact arithmetic); `M`, `N`, `E` are arbitrary naturals.
-/
import proofs.«134058_j34986803593241_2_alg».proof.Proof.LibSegment
import Idealize.ShloMosaic.Lib.Pipeline.Value

noncomputable section

open scoped BigOperators

namespace Cert.LibAugment

open Idealize.ShloMosaic Idealize.ShloMosaic.ValueIdx Cert.LibSegment

/-- The appended table at a column `k < 10` reads the original table. -/
theorem concat_left_apply {α : Type} {M : ℕ}
    (hcat : Shape.Concatenates [⟨2, ![M, 10]⟩, ⟨2, ![M, 1]⟩] ⟨2, ![M, 11]⟩ 1)
    (h : (⟨2, ![M, 10]⟩ : Shape).Idx → α) (o : (⟨2, ![M, 1]⟩ : Shape).Idx → α) (r : Fin M) (k : Fin 10) :
    concatenate ⟨2, ![M, 11]⟩ 1 [⟨⟨2, ![M, 10]⟩, h⟩, ⟨⟨2, ![M, 1]⟩, o⟩] hcat (ix2 r k.castSucc) = h (ix2 r k) :=
  concatenate_pair_apply_left 1 h o hcat (ix2 r k.castSucc) rfl (ix2 r k) fun b => by
    match b with
    | ⟨0, _⟩ => rfl
    | ⟨1, _⟩ => rfl

/-- The appended table at column `10` reads the appended column. -/
theorem concat_right_apply {α : Type} {M : ℕ}
    (hcat : Shape.Concatenates [⟨2, ![M, 10]⟩, ⟨2, ![M, 1]⟩] ⟨2, ![M, 11]⟩ 1)
    (h : (⟨2, ![M, 10]⟩ : Shape).Idx → α) (o : (⟨2, ![M, 1]⟩ : Shape).Idx → α) (r : Fin M) :
    concatenate ⟨2, ![M, 11]⟩ 1 [⟨⟨2, ![M, 10]⟩, h⟩, ⟨⟨2, ![M, 1]⟩, o⟩] hcat (ix2 r (10 : Fin 11)) = o (ix2 r (0 : Fin 1)) :=
  concatenate_pair_apply_right 1 h o hcat (ix2 r (10 : Fin 11)) rfl rfl (ix2 r (0 : Fin 1))
    (fun b hb => by
      match b with
      | ⟨0, _⟩ => rfl
      | ⟨1, _⟩ => exact absurd rfl hb)
    rfl

/-- COLUMN `k < 10` OF THE AUGMENTED AGGREGATE is column `k` of the plain aggregate. -/
theorem augmented_feature {M N E : ℕ} (hM : 0 < M)
    (wfs11 : ScatterDims.WF ⟨2, ![N, 11]⟩ ⟨2, ![E, 1]⟩ ⟨2, ![E, 11]⟩ [1] [0] [0] 1)
    (wfs10 : ScatterDims.WF ⟨2, ![N, 10]⟩ ⟨2, ![E, 1]⟩ ⟨2, ![E, 10]⟩ [1] [0] [0] 1)
    (wfg11 : GatherDims.WF ⟨2, ![M, 11]⟩ ⟨2, ![E, 1]⟩ ⟨2, ![E, 11]⟩ [1] [0] [] [0] [] 1 ![1, 11])
    (wfg10 : GatherDims.WF ⟨2, ![M, 10]⟩ ⟨2, ![E, 1]⟩ ⟨2, ![E, 10]⟩ [1] [0] [] [0] [] 1 ![1, 10])
    (hcat : Shape.Concatenates [⟨2, ![M, 10]⟩, ⟨2, ![M, 1]⟩] ⟨2, ![M, 11]⟩ 1)
    (h : FVec Ideal ⟨2, ![M, 10]⟩ .f32) (o : FVec Ideal ⟨2, ![M, 1]⟩ .f32)
    (z11 : FVec Ideal ⟨2, ![N, 11]⟩ .f32) (z10 : FVec Ideal ⟨2, ![N, 10]⟩ .f32)
    (D I : IVec ⟨2, ![E, 1]⟩ 32) (n : Fin N) (k : Fin 10) (hz : z11 (ix2 n k.castSucc) = z10 (ix2 n k)) :
    Host.scatterAdd (F := Ideal) (rowScatter N E 11 wfs11) z11 D
        (Host.gather (rowGather M E 11 wfg11)
          (concatenate ⟨2, ![M, 11]⟩ 1 [⟨⟨2, ![M, 10]⟩, h⟩, ⟨⟨2, ![M, 1]⟩, o⟩] hcat) I) (ix2 n k.castSucc)
      = Host.scatterAdd (F := Ideal) (rowScatter N E 10 wfs10) z10 D (Host.gather (rowGather M E 10 wfg10) h I) (ix2 n k) := by
  rw [scatterAdd_rows_apply, scatterAdd_rows_apply, hz]
  congr 1
  refine Finset.sum_congr rfl fun e _ => ?_
  rw [gather_rows_apply hM, gather_rows_apply hM, concat_left_apply]

/-- COLUMN `10` OF THE AUGMENTED AGGREGATE, the appended column constant and equal to the entries of `ones`, is the
    scatter-add of `ones`. -/
theorem augmented_degree {M N E : ℕ} (hM : 0 < M)
    (wfs11 : ScatterDims.WF ⟨2, ![N, 11]⟩ ⟨2, ![E, 1]⟩ ⟨2, ![E, 11]⟩ [1] [0] [0] 1)
    (wfv : ScatterDims.WF ⟨1, ![N]⟩ ⟨2, ![E, 1]⟩ ⟨1, ![E]⟩ [] [0] [0] 1)
    (wfg11 : GatherDims.WF ⟨2, ![M, 11]⟩ ⟨2, ![E, 1]⟩ ⟨2, ![E, 11]⟩ [1] [0] [] [0] [] 1 ![1, 11])
    (hcat : Shape.Concatenates [⟨2, ![M, 10]⟩, ⟨2, ![M, 1]⟩] ⟨2, ![M, 11]⟩ 1)
    (h : FVec Ideal ⟨2, ![M, 10]⟩ .f32) (o : FVec Ideal ⟨2, ![M, 1]⟩ .f32)
    (z11 : FVec Ideal ⟨2, ![N, 11]⟩ .f32) (z1 : FVec Ideal ⟨1, ![N]⟩ .f32) (ones : FVec Ideal ⟨1, ![E]⟩ .f32)
    (D I : IVec ⟨2, ![E, 1]⟩ 32) (n : Fin N)
    (hz : z11 (ix2 n (10 : Fin 11)) = z1 (ix1 n)) (ho : ∀ (r : Fin M) (e : Fin E), o (ix2 r (0 : Fin 1)) = ones (ix1 e)) :
    Host.scatterAdd (F := Ideal) (rowScatter N E 11 wfs11) z11 D
        (Host.gather (rowGather M E 11 wfg11)
          (concatenate ⟨2, ![M, 11]⟩ 1 [⟨⟨2, ![M, 10]⟩, h⟩, ⟨⟨2, ![M, 1]⟩, o⟩] hcat) I) (ix2 n (10 : Fin 11))
      = Host.scatterAdd (F := Ideal) (vecScatter N E wfv) z1 D ones (ix1 n) := by
  rw [scatterAdd_rows_apply, scatterAdd_vec_apply, hz]
  congr 1
  refine Finset.sum_congr rfl fun e _ => ?_
  rw [gather_rows_apply hM, concat_right_apply, ho _ e]

end Cert.LibAugment

end
-- ==== Proof.Bridge.lean ====
/-
  The two programs' aggregates agree.

  The kernel program appends a column of ones to each source table, gathers rows of the widened table at the start
  rows and scatter-adds them at the destinations into zeros; the reference program gathers and scatter-adds the
  table itself, and separately scatter-adds a vector of ones at the same destinations (the degree). Both programs
  compute the start rows by the same wrap of a negative index by the table's height and use the same destination
  column, and both start from zeros. So column `k < 10` of the kernel program's aggregate is column `k` of the
  reference program's, and column `10` is the reference program's degree — for each of the two relations (source
  tables of 500000 and of 300000 rows). The general facts are those on aggregating a table with an appended column;
  here they are instantiated at the two programs' shapes, the index arrays kept as variables.
-/
import proofs.«134058_j34986803593241_2_alg».proof.Proof.KernelHost
import proofs.«134058_j34986803593241_2_alg».proof.Proof.Gen.ReferenceIdeal.Read
import proofs.«134058_j34986803593241_2_alg».proof.Proof.LibAugment

noncomputable section

namespace Cert.Bridge

open Idealize.ShloMosaic Idealize.ShloMosaic.ValueIdx Cert.LibSegment Cert.LibAugment

/-- The kernel program's start rows are the reference program's: the same wrap of a negative index by the table's
    height, written as a column (first relation, height 500000). -/
theorem startRows_tok (src : IVec Cert.KernelIdeal.S8000000 32) :
    Cert.KernelIdeal.HostVals.startRows 500000#32 src = Cert.ReferenceIdeal.Read.val_main_v5 (F := Ideal) src := rfl

/-- The same for the second relation (height 300000). -/
theorem startRows_art (src : IVec Cert.KernelIdeal.S8000000 32) :
    Cert.KernelIdeal.HostVals.startRows 300000#32 src = Cert.ReferenceIdeal.Read.val_main_v30 (F := Ideal) src := rfl

/-- First relation: column `k < 10` of the kernel program's aggregate over the table with a column of ones appended is
    column `k` of the reference program's aggregate over the table. -/
theorem aggTok_feature (h : FVec Ideal Cert.KernelIdeal.S500000x10 .f32) (src dst : IVec Cert.KernelIdeal.S8000000 32)
    (n : Fin 200000) (k : Fin 10) :
    Cert.KernelIdeal.HostVals.aggTok h src dst (ix2 n k.castSucc) = Cert.ReferenceIdeal.Read.val_main_v9 (F := Ideal) h src dst (ix2 n k) := by
  unfold Cert.KernelIdeal.HostVals.aggTok Cert.ReferenceIdeal.Read.val_main_v9 Cert.ReferenceIdeal.Read.val_main_v6
  rw [startRows_tok]
  generalize Cert.ReferenceIdeal.Read.val_main_v5 (F := Ideal) src = I
  exact augmented_feature (by decide) _ _ _ _ _ h _ _ _ _ I n k rfl

/-- First relation: column `10` of the kernel program's aggregate is the reference program's degree, the scatter-add of
    ones at the same destinations. -/
theorem aggTok_degree (h : FVec Ideal Cert.KernelIdeal.S500000x10 .f32) (src dst : IVec Cert.KernelIdeal.S8000000 32)
    (n : Fin 200000) :
    Cert.KernelIdeal.HostVals.aggTok h src dst (ix2 n (10 : Fin 11)) = Cert.ReferenceIdeal.Read.val_main_v13 (F := Ideal) dst (ix1 n) := by
  unfold Cert.KernelIdeal.HostVals.aggTok Cert.ReferenceIdeal.Read.val_main_v13
  generalize Cert.KernelIdeal.HostVals.startRows 500000#32 src = I
  exact augmented_degree (by decide) _ _ _ _ h _ _ _ _ _ I n rfl (fun _ _ => rfl)

/-- Second relation: column `k < 10` of the kernel program's aggregate is column `k` of the reference program's. -/
theorem aggArt_feature (h : FVec Ideal Cert.KernelIdeal.S300000x10 .f32) (src dst : IVec Cert.KernelIdeal.S8000000 32)
    (n : Fin 200000) (k : Fin 10) :
    Cert.KernelIdeal.HostVals.aggArt h src dst (ix2 n k.castSucc) = Cert.ReferenceIdeal.Read.val_main_v34 (F := Ideal) h src dst (ix2 n k) := by
  unfold Cert.KernelIdeal.HostVals.aggArt Cert.ReferenceIdeal.Read.val_main_v34 Cert.ReferenceIdeal.Read.val_main_v31
  rw [startRows_art]
  generalize Cert.ReferenceIdeal.Read.val_main_v30 (F := Ideal) src = I
  exact augmented_feature (by decide) _ _ _ _ _ h _ _ _ _ I n k rfl

/-- Second relation: column `10` of the kernel program's aggregate is the reference program's degree. -/
theorem aggArt_degree (h : FVec Ideal Cert.KernelIdeal.S300000x10 .f32) (src dst : IVec Cert.KernelIdeal.S8000000 32)
    (n : Fin 200000) :
    Cert.KernelIdeal.HostVals.aggArt h src dst (ix2 n (10 : Fin 11)) = Cert.ReferenceIdeal.Read.val_main_v38 (F := Ideal) dst (ix1 n) := by
  unfold Cert.KernelIdeal.HostVals.aggArt Cert.ReferenceIdeal.Read.val_main_v38
  generalize Cert.KernelIdeal.HostVals.startRows 300000#32 src = I
  exact augmented_degree (by decide) _ _ _ _ h _ _ _ _ _ I n rfl (fun _ _ => rfl)

end Cert.Bridge

end
-- ==== Proof.Join.lean ====
/-
  The two programs meet at every node.

  Take the reference's fifteen arguments, and nine arrays `A0 … A8` of which we know: `A0` is the node features; `A1`,
  `A2` are the two relations' 11-column aggregates (ten summed neighbour features and the degree, from one scatter-add
  of gathered rows of the source table with a column of ones appended); `A3` is the sum of the two self-weight matrices,
  `A4`, `A5` the two neighbour-weight matrices, `A6` the row of summed biases, `A7` the read-out column, `A8` its
  offset. Then the reference's result at node `n` is the fused row formula of `A0 … A8` at `n`:
  the reference's row is the split row formula; columns 0–9 of an 11-column aggregate are the reference's scattered sums
  and column 10 is its scattered degree; and the split formula is the fused one at the summed self weights and biases,
  because the node features and the self weights are real numbers.
-/
import proofs.«134058_j34986803593241_2_alg».proof.Proof.RefValue
import proofs.«134058_j34986803593241_2_alg».proof.Proof.KernelBlocks
import proofs.«134058_j34986803593241_2_alg».proof.Proof.KernelHost
import proofs.«134058_j34986803593241_2_alg».proof.Proof.Bridge
import proofs.«134058_j34986803593241_2_alg».proof.Proof.Spec

noncomputable section

open scoped BigOperators

namespace Cert.Join

open Idealize.ShloMosaic Idealize.ShloMosaic.ValueIdx Cert.KernelIdeal

/-- THE REFERENCE'S RESULT AT NODE `n` IS THE FUSED ROW FORMULA of the nine arrays the kernel's region finds. -/
theorem ref_eq_rowOf (a0 : S200000x10.Idx → EReal) (a1 : S500000x10.Idx → EReal) (a2 : S300000x10.Idx → EReal)
    (a3 a4 a5 a6 : IVec S8000000 32) (a7 a8 : S10x10.Idx → EReal) (a9 : S10.Idx → EReal) (a10 a11 : S10x10.Idx → EReal)
    (a12 : S10.Idx → EReal) (a13 : S10x1.Idx → EReal) (a14 : S1.Idx → EReal)
    (A0 : S200000x10.Idx → EReal) (A1 A2 : S200000x11.Idx → EReal) (A3 A4 A5 : S10x10.Idx → EReal)
    (A6 : S1x10.Idx → EReal) (A7 : S10x1.Idx → EReal) (A8 : S1x1.Idx → EReal)
    (h0 : A0 = a0) (h1 : A1 = HostVals.aggTok a1 a3 a4) (h2 : A2 = HostVals.aggArt a2 a5 a6)
    (h3 : ∀ k j : Fin 10, A3 (ix2 k j) = a7 (ix2 k j) + a10 (ix2 k j))
    (h4 : ∀ k j : Fin 10, A4 (ix2 k j) = a8 (ix2 k j)) (h5 : ∀ k j : Fin 10, A5 (ix2 k j) = a11 (ix2 k j))
    (h6 : ∀ j : Fin 10, A6 (ix2 (0 : Fin 1) j) = a9 (ix1 j) + a12 (ix1 j))
    (h7 : ∀ j : Fin 10, A7 (ix2 j (0 : Fin 1)) = a13 (ix2 j (0 : Fin 1)))
    (h8 : A8 (ix2 (0 : Fin 1) (0 : Fin 1)) = a14 (ix1 (0 : Fin 1)))
    (f0 : ∀ i, ∃ r : ℝ, a0 i = (r : EReal)) (f7 : ∀ i, ∃ r : ℝ, a7 i = (r : EReal)) (f10 : ∀ i, ∃ r : ℝ, a10 i = (r : EReal))
    (n : Fin 200000) :
    Cert.ReferenceIdeal.Read.val_main_v54 (F := Ideal) a0 a1 a2 a3 a4 a5 a6 a7 a8 a9 a10 a11 a12 a13 a14 (ix2 n (0 : Fin 1))
      = Cert.KernelIdeal.Blocks.rowOf A0 A1 A2 A3 A4 A5 A6 A7 A8 n := by
  subst h0 h1 h2
  rw [Cert.ReferenceIdeal.RefValue.ref_row,
    Cert.Spec.splitRow_eq_fusedRow _ _ _ _ _ _ _ _ _ _ _ (fun k => f0 _) (fun k j => f7 _) (fun k j => f10 _)]
  unfold Cert.KernelIdeal.Blocks.rowOf
  simp only [h3, h4, h5, h6, h7, h8, Cert.Bridge.aggTok_feature, Cert.Bridge.aggTok_degree, Cert.Bridge.aggArt_feature,
    Cert.Bridge.aggArt_degree]

end Cert.Join

end
-- ==== Proof.lean ====
/-
  A two-relation mean-aggregating graph layer with a linear read-out: a fused kernel against its plain reference.

  Both programs compute, for each of 200000 destination nodes `n` and for each of two relations, the sum of the source
  rows over the edges that end at `n` and the number of such edges (a gather of source rows followed by a scatter-add over
  8000000 edges; a negative source index wraps once, an out-of-range one is clamped, an out-of-range destination drops
  out), divide the sums by the degree guarded below by one, and push the means and the node's own features through the
  relations' weights and a final 10 → 1 read-out.

  The reference does this relation by relation: `hs · Wst + mt · Wnt + bt` and `hs · Wsa + ma · Wna + ba`, added, then
  read out. The kernel appends a column of ones to each source table, so that one scatter-add yields the ten sums and, in
  column 10, the degree; it adds the two self-weight matrices and the two biases beforehand; and one grid of 100 points,
  each on 2000 consecutive nodes, forms `hs · (Wst + Wsa) + mt · Wnt + ma · Wna + (bt + ba)` and reads out. Changes of
  float format are the identity on extended reals.

  The two results are equal node by node: column `k < 10` of the augmented aggregate is the reference's scattered sum
  and column 10 is its scattered degree (the appended column gathers to one at every edge, because a gather clamps its
  row); and `hs · (Wst + Wsa) = hs · Wst + hs · Wsa` entry by entry because the node features and the self weights
  are finite — the one place the precondition is used. Everything else is commutativity and associativity of addition,
  which hold on all extended reals. The three frames are the generated ones; nothing was rewritten in the idealized
  kernel, so the idealization claim is trivial.
-/
import proofs.«134058_j34986803593241_2_alg».proof.Defs
import proofs.«134058_j34986803593241_2_alg».proof.Proof.Gen.Kernel
import proofs.«134058_j34986803593241_2_alg».proof.Proof.Gen.Kernel.Skeleton
import proofs.«134058_j34986803593241_2_alg».proof.Proof.Gen.Kernel.Launch
import proofs.«134058_j34986803593241_2_alg».proof.Proof.Gen.Kernel.Points
import proofs.«134058_j34986803593241_2_alg».proof.Proof.Gen.Kernel.Frame
import proofs.«134058_j34986803593241_2_alg».proof.Proof.Gen.KernelIdeal
import proofs.«134058_j34986803593241_2_alg».proof.Proof.Gen.KernelIdeal.Skeleton
import proofs.«134058_j34986803593241_2_alg».proof.Proof.Gen.KernelIdeal.Launch
import proofs.«134058_j34986803593241_2_alg».proof.Proof.Gen.KernelIdeal.Points
import proofs.«134058_j34986803593241_2_alg».proof.Proof.Gen.KernelIdeal.Frame
import proofs.«134058_j34986803593241_2_alg».proof.Proof.Gen.ReferenceIdeal
import proofs.«134058_j34986803593241_2_alg».proof.Proof.Gen.Pre_finite_inputs
import proofs.«134058_j34986803593241_2_alg».proof.Proof.Gen.KernelIdeal.Value
import proofs.«134058_j34986803593241_2_alg».proof.Proof.Gen.ReferenceIdeal.Run
import proofs.«134058_j34986803593241_2_alg».proof.Proof.Gen.ReferenceIdeal.Read
import proofs.«134058_j34986803593241_2_alg».proof.Proof.KernelRun
import proofs.«134058_j34986803593241_2_alg».proof.Proof.KernelHost
import proofs.«134058_j34986803593241_2_alg».proof.Proof.Finite
import proofs.«134058_j34986803593241_2_alg».proof.Proof.Join
import Idealize.ShloMosaic.Adequacy
import Idealize.ShloMosaic.Init

noncomputable section

namespace Cert.Proof.Meet

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The kernel's result function at node `n` is the fused row formula of the nine arrays its region finds. -/
theorem G_apply (c : Dev nD) (n : Fin 200000) :
    Cert.KernelIdeal.Blocks.rowOf (V m c main_arg0) (V m c main_v11) (V m c main_v23) (V m c main_v27) (V m c main_v28) (V m c main_v29) (V m c main_v26) (V m c main_v30) (V m c main_v31) n
      = Cert.KernelIdeal.Blocks.G m c (ix2 n (0 : Fin 1)) := rfl

/-- THE TWO RESULTS ARE EQUAL: the reference's result term at the kernel's arguments is the kernel's result function. -/
theorem result_eq (hpre : Cert.Pre_KernelIdeal m) (c : Dev nD) :
    Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      = Cert.KernelIdeal.Blocks.G m c := by
  funext i
  obtain ⟨n, q, rfl⟩ : ∃ (n : Fin 200000) (q : Fin 1), i = ix2 n q := ⟨i 0, i 1, eq_ix2 i⟩
  obtain rfl : q = 0 := Subsingleton.elim _ _
  refine (Cert.Join.ref_eq_rowOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
    (V m c main_arg0) (V m c main_v11) (V m c main_v23) (V m c main_v27) (V m c main_v28) (V m c main_v29) (V m c main_v26) (V m c main_v30) (V m c main_v31)
    (V_main_arg0 m c) (Cert.KernelIdeal.HostVals.V_v11 m c) (Cert.KernelIdeal.HostVals.V_v23 m c)
    (Cert.KernelIdeal.HostVals.V_v27_apply m c) (Cert.KernelIdeal.HostVals.V_v28_apply m c) (Cert.KernelIdeal.HostVals.V_v29_apply m c)
    (Cert.KernelIdeal.HostVals.V_v26_apply m c) (Cert.KernelIdeal.HostVals.V_v30_apply m c) (Cert.KernelIdeal.HostVals.V_v31_apply m c)
    (Cert.Finite.arg0_real m hpre c) (Cert.Finite.arg7_real m hpre c) (Cert.Finite.arg10_real m hpre c) n).trans ?_
  exact G_apply m c n

end Cert.Proof.Meet

namespace Cert.Proof

open Idealize.ShloMosaic Idealize.SL.Sem

/-- The word-level kernel runs and leaves its arguments as they were: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments as they were: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten for reading it on the extended reals. -/
theorem preserves : Cert.preserves_Kernel_KernelIdeal := trivial

/-- From memories agreeing on the arguments the idealized kernel and the idealized reference both run, to equal
    results: the kernel's result array is its result function, the reference's its composed term, and the two are one
    function of the arguments. -/
theorem algebraic : Cert.algebraic_KernelIdeal_ReferenceIdeal := by
  intro m ρ m' ρ' hpre hagree
  refine ⟨fun c => Cert.KernelIdeal.Blocks.G m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10, g11, g12, g13, g14⟩ := hagree c
  rw [Cert.ReferenceIdeal.Read.val_main_v54_eq, g0, g1, g2, g3, g4, g5, g6, g7, g8, g9, g10, g11, g12, g13, g14]
  exact Cert.Proof.Meet.result_eq m hpre c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
